-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) (main_arg1 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S16x8x512x512 .f32 := Host.absf main_arg1
  let main_cst_0 : FVec F S_ .f32 := constant S_ .f32 0x7F800000#32
  let main_v5 : FVec F S16x8x512x512 .f32 := broadcastInDim S16x8x512x512 ![] bcast_S_S16x8x512x512 main_cst_0
  let main_v6 : IVec S16x8x512x512 1 := cmpf .olt main_v4 main_v5
  let main_c_1 : IVec S_ 1 := constantI S_ 1 1#1
  let main_v7 : IVec S_ 1 := (fun x v => Host.reduce IntOp.andi x v reducesTo_S16x8x512x512_S_d0_1_2_3 h_S_) main_v6 main_c_1
  let main_v8 : IVec S_ 1 := andi main_v3 main_v7
  main_v8
-- ==== Kernel.lean ====
abbrev S16x8x512x512 : Shape := ⟨4, ![16, 8, 512, 512]⟩
abbrev S2x1x128 : Shape := ⟨3, ![2, 1, 128]⟩
abbrev S1x8x256x512 : Shape := ⟨4, ![1, 8, 256, 512]⟩
abbrev S1x1x128 : Shape := ⟨3, ![1, 1, 128]⟩
abbrev S1x1 : Shape := ⟨2, ![1, 1]⟩
abbrev S7x1 : Shape := ⟨2, ![7, 1]⟩
abbrev S8x256x512 : Shape := ⟨3, ![8, 256, 512]⟩
abbrev S8x256 : Shape := ⟨2, ![8, 256]⟩
abbrev S8 : Shape := ⟨1, ![8]⟩
abbrev S8x1 : Shape := ⟨2, ![8, 1]⟩
abbrev S1 : Shape := ⟨1, ![1]⟩
abbrev S7x256x512 : Shape := ⟨3, ![7, 256, 512]⟩
abbrev S7x256 : Shape := ⟨2, ![7, 256]⟩
abbrev S7 : Shape := ⟨1, ![7]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 29
  | .vmem => 13
  | .smem => 0
  | _ => 0

abbrev bufTy : (tb : Table) → Fin (tcTables nBuf tb) → BufTy
  | .hbm, ⟨0, _⟩ => ⟨S16x8x512x512, .f32⟩
  | .hbm, ⟨1, _⟩ => ⟨S16x8x512x512, .f32⟩
  | .hbm, ⟨2, _⟩ => ⟨S2x1x128, .f32⟩
  | .hbm, ⟨3, _⟩ => ⟨S2x1x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x8x256x512, .f32⟩
  | .local _ .vmem, ⟨1, _⟩ => ⟨S1x8x256x512, .f32⟩
  | .local _ .vmem, ⟨2, _⟩ => ⟨S1x8x256x512, .f32⟩
  | .local _ .vmem, ⟨3, _⟩ => ⟨S1x8x256x512, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S1x1, .f32⟩
  | .local _ .vmem, ⟨10, _⟩ => ⟨S7x1, .f32⟩
  | .local _ .vmem, ⟨11, _⟩ => ⟨S7x1, .f32⟩
  | .local _ .vmem, ⟨12, _⟩ => ⟨S7x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_cond4 (i : grid0.Coords) : BitVec 1 :=
  let arg1 : BitVec 32 := BitVec.ofNat 32 (i 1).val
  let c7_i32 : BitVec 32 := 7#32
  let v65 : BitVec 1 := Scalar.cmpi .eq arg1 c7_i32
  let arg2 : BitVec 32 := BitVec.ofNat 32 (i 2).val
  let c1_i32_39 : BitVec 32 := 1#32
  let v66 : BitVec 1 := Scalar.cmpi .eq arg2 c1_i32_39
  let v67 : BitVec 1 := Scalar.andi v65 v66
  let v68 : BitVec 32 := Scalar.extui v67
  let c0_i32_40 : BitVec 32 := 0#32
  let v69 : BitVec 1 := Scalar.cmpi .ne v68 c0_i32_40
  v69

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S7x1_S7x1_0_0 : ∀ a, (![0, 0] : Fin 2 → Nat) a + S7x1.size a ≤ S7x1.size a
  h_S7x1 : 0 < S7x1.numel
  shapeCasts_S7x1_S7x1 : S7x1.ShapeCasts S7x1
  inb_S1x8x256x512_S1x8x256x512_0_0_0_0 : ∀ a, (![0, 0, 0, 0] : Fin 4 → Nat) a + S1x8x256x512.size a ≤ S1x8x256x512.size a
  h_S1x8x256x512 : 0 < S1x8x256x512.numel
  shapeCasts_S1x8x256x512_S8x256x512 : S1x8x256x512.ShapeCasts S8x256x512
  reduces_S8x256x512_S8x256 : S8x256x512.Reduces [2] S8x256
  reduces_S8x256_S8 : S8x256.Reduces [1] S8
  shapeCasts_S8_S8x1 : S8.ShapeCasts S8x1
  reduces_S8x1_S1 : S8x1.Reduces [0] S1
  shapeCasts_S1_S1x1 : S1.ShapeCasts S1x1
  slices_S8x256x512_o0_0_0_S7x256x512 : S8x256x512.Slices ![0, 0, 0] S7x256x512
  slices_S8x256x512_o1_0_0_S7x256x512 : S8x256x512.Slices ![1, 0, 0] S7x256x512
  reduces_S7x256x512_S7x256 : S7x256x512.Reduces [2] S7x256
  reduces_S7x256_S7 : S7x256.Reduces [1] S7
  shapeCasts_S7_S7x1 : S7.ShapeCasts S7x1
  reduces_S7x1_S1 : S7x1.Reduces [0] S1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S16x8x512x512.size a
  hwx0_0 : ∀ i : grid0.Coords, EltTy.bits .f32 = 32 ∨ (Rect.block (s := S16x8x512x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x512.size a ≤ S16x8x512x512.size a
  hwx0_1 : ∀ i : grid0.Coords, EltTy.bits .f32 = 32 ∨ (Rect.block (s := S16x8x512x512) S1x8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S33554432 : Shape := ⟨1, ![33554432]⟩
abbrev S_ : Shape := ⟨0, ![]⟩
abbrev S16x8x262144 : Shape := ⟨3, ![16, 8, 262144]⟩
abbrev S16x7x262144 : Shape := ⟨3, ![16, 7, 262144]⟩
abbrev S16x7 : Shape := ⟨2, ![16, 7]⟩

abbrev nBuf : Space → Nat
  | .hbm => 62
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S16x8x512x512, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S33554432, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x8x262144, .f32⟩
  | .hbm, ⟨34, _⟩ => ⟨S16x7x262144, .f32⟩
  | .hbm, ⟨35, _⟩ => ⟨S16x7x262144, .f32⟩
  | .hbm, ⟨36, _⟩ => ⟨S16x7x262144, .f32⟩
  | .hbm, ⟨37, _⟩ => ⟨S_, .f32⟩
  | .hbm, ⟨38, _⟩ => ⟨S16x7, .f32⟩
  | .hbm, ⟨39, _⟩ => ⟨S16x7x262144, .f32⟩
  | .hbm, ⟨40, _⟩ => ⟨S_, .f32⟩
  | .hbm, ⟨41, _⟩ => ⟨S16x7, .f32⟩
  | .hbm, ⟨42, _⟩ => ⟨S16x7, .f32⟩
  | .hbm, ⟨43, _⟩ => ⟨S16x7x262144, .f32⟩
  | .hbm, ⟨44, _⟩ => ⟨S_, .f32⟩
  | .hbm, ⟨45, _⟩ => ⟨S16x7, .f32⟩
  | .hbm, ⟨46, _⟩ => ⟨S16x7, .f32⟩
  | .hbm, ⟨47, _⟩ => ⟨S_, .f32⟩
  | .hbm, ⟨48, _⟩ => ⟨S16x7, .f32⟩
  | .hbm, ⟨49, _⟩ => ⟨S16x7, .f32⟩
  | .hbm, ⟨50, _⟩ => ⟨S_, .f32⟩
  | .hbm, ⟨51, _⟩ => ⟨S16x7, .f32⟩
  | .hbm, ⟨52, _⟩ => ⟨S16x7, .f32⟩
  | .hbm, ⟨53, _⟩ => ⟨S16x7, .f32⟩
  | .hbm, ⟨54, _⟩ => ⟨S16x7, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  shapeCasts_S16x8x512x512_S33554432 : S16x8x512x512.ShapeCasts S33554432
  bcast_S_S33554432 : S_.BroadcastsInDim S33554432 (![] : Fin 0 → Fin S33554432.rank)
  reducesTo_S33554432_S_d0 : S33554432.ReducesTo [0] S_
  h_S_ : 0 < S_.numel
  shapeCasts_S16x8x512x512_S16x8x262144 : S16x8x512x512.ShapeCasts S16x8x262144
  slices_S16x8x262144_S16x7x262144_0_0_0 : S16x8x262144.Slices ![0, 0, 0] S16x7x262144
  slices_S16x8x262144_S16x7x262144_0_1_0 : S16x8x262144.Slices ![0, 1, 0] S16x7x262144
  reducesTo_S16x7x262144_S16x7_d2 : S16x7x262144.ReducesTo [2] S16x7
  bcast_S_S16x7 : S_.BroadcastsInDim S16x7 (![] : Fin 0 → Fin S16x7.rank)
  reducesTo_S16x7_S_d0_1 : S16x7.ReducesTo [0, 1] S_

variable [Facts₀]

class Facts : Prop extends Facts₀ where

variable [Facts]
-- ==== Proof.Pieces.lean ====
/-
  What one run of the kernel body leaves behind, case by case, as values.

  The body has four conditionals on the grid point; the points fall in four cases:
    A  a core's first point            (first batch, first half of the rows): every accumulator restarts;
    C  a later batch's first half      : the per-batch accumulators restart, the per-core ones continue;
    B  a batch's second half           : everything continues and the batch's cosines join the core's sum;
    D  a core's last point             : as B, and the two core sums are broadcast into the two output blocks.
  In each case each of the five carried accumulators (and in D each output block) ends holding ONE store's value,
  a pure function of the two input blocks `x0`, `x1` and of what the accumulators held before (`xs0 … xs4`):
  the covering stores' values read back, every load reading a whole buffer.
-/
import proofs.«142088_j50259707298726_2_alg».proof.Proof.Gen.KernelIdeal.Frame
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords)
  (arg3 : Memref sig .tc .vmem S1x8x256x512 .f32) (harg3 : arg3.IsWhole) (arg4 : Memref sig .tc .vmem S1x8x256x512 .f32) (harg4 : arg4.IsWhole)
  (arg5 : Memref sig .tc .vmem S1x1x128 .f32) (harg5 : arg5.IsWhole) (arg6 : Memref sig .tc .vmem S1x1x128 .f32) (harg6 : arg6.IsWhole)
  (arg7 : Memref sig .tc .vmem S1x1 .f32) (harg7 : arg7.IsWhole) (arg8 : Memref sig .tc .vmem S1x1 .f32) (harg8 : arg8.IsWhole)
  (arg9 : Memref sig .tc .vmem S7x1 .f32) (harg9 : arg9.IsWhole) (arg10 : Memref sig .tc .vmem S7x1 .f32) (harg10 : arg10.IsWhole)
  (arg11 : Memref sig .tc .vmem S7x1 .f32) (harg11 : arg11.IsWhole)
  (x0 x1 : Vec F S1x8x256x512 .f32) (xs0 xs1 : Vec F S1x1 .f32) (xs2 xs3 xs4 : Vec F S7x1 .f32)

theorem soutA0 (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 arg10 harg10 arg11 harg11 hc0 hc1 hc2 hc3 x0 x1 = k0_pay10 (k0_pay9 x0 x1 (k0_pay3 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 hc3 x0 x1)]
  unfold kernelRun0_A
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutA1 (hc0 : cond0_0 i) (hc1 : cond0_1 i) (hc2 : ¬cond0_2 i) (hc3 : ¬cond0_3 i) :
    sout0_A_1 c i arg3 harg3 arg4 harg4 arg5 harg5 arg6 harg6 arg7 harg7 arg8 harg8 arg9 harg9 arg10 harg10 arg11 harg11 hc0 hc1 hc2 hc3 x0 x1 = (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 hc2 hc3 x0 x1)]
  unfold kernelRun0_A
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutA2 (hc0 : cond0_0 i) (hc1 : cond0_1 i) (hc2 : ¬cond0_2 i) (hc3 : ¬cond0_3 i) :
    sout0_A_2 c i arg3 harg3 arg4 harg4 arg5 harg5 arg6 harg6 arg7 harg7 arg8 harg8 arg9 harg9 arg10 harg10 arg11 harg11 hc0 hc1 hc2 hc3 x0 x1 = k0_pay13 (k0_pay8 x0) (k0_pay5 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 hc2 hc3 x0 x1)]
  unfold kernelRun0_A
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutA3 (hc0 : cond0_0 i) (hc1 : cond0_1 i) (hc2 : ¬cond0_2 i) (hc3 : ¬cond0_3 i) :
    sout0_A_3 c i arg3 harg3 arg4 harg4 arg5 harg5 arg6 harg6 arg7 harg7 arg8 harg8 arg9 harg9 arg10 harg10 arg11 harg11 hc0 hc1 hc2 hc3 x0 x1 = k0_pay14 (k0_pay8 x0) (k0_pay6 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 hc0 hc1 hc2 hc3 x0 x1)]
  unfold kernelRun0_A
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutA4 (hc0 : cond0_0 i) (hc1 : cond0_1 i) (hc2 : ¬cond0_2 i) (hc3 : ¬cond0_3 i) :
    sout0_A_4 c i arg3 harg3 arg4 harg4 arg5 harg5 arg6 harg6 arg7 harg7 arg8 harg8 arg9 harg9 arg10 harg10 arg11 harg11 hc0 hc1 hc2 hc3 x0 x1 = k0_pay15 (k0_pay8 x0) (k0_pay7 (F := F)) := by
  unfold sout0_A_4
  rw [View.read_writes_eq_canon _ _ _ (scover0_A_4 c i arg3 harg3 arg4 harg4 arg5 harg5 arg6 harg6 arg7 harg7 arg8 harg8 arg9 harg9 arg10 harg10 arg11 harg11 hc0 hc1 hc2 hc3 x0 x1)]
  unfold kernelRun0_A
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutB0 (hc0 : ¬cond0_0 i) (hc1 : ¬cond0_1 i) (hc2 : cond0_2 i) (hc3 : ¬cond0_3 i) :
    sout0_B_0 c i arg3 harg3 arg4 harg4 arg5 harg5 arg6 harg6 arg7 harg7 arg8 harg8 arg9 harg9 arg10 harg10 arg11 harg11 hc0 hc1 hc2 hc3 x0 x1 xs0 xs1 xs2 xs3 xs4 = k0_pay10 (k0_pay9 x0 x1 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_B
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutB1 (hc0 : ¬cond0_0 i) (hc1 : ¬cond0_1 i) (hc2 : cond0_2 i) (hc3 : ¬cond0_3 i) :
    sout0_B_1 c i arg3 harg3 arg4 harg4 arg5 harg5 arg6 harg6 arg7 harg7 arg8 harg8 arg9 harg9 arg10 harg10 arg11 harg11 hc0 hc1 hc2 hc3 x0 x1 xs0 xs1 xs2 xs3 xs4 = k0_pay16 (k0_pay14 (k0_pay8 x0) xs3) (k0_pay15 (k0_pay8 x0) xs4) (k0_pay13 (k0_pay8 x0) xs2) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_B
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutB2 (hc0 : ¬cond0_0 i) (hc1 : ¬cond0_1 i) (hc2 : cond0_2 i) (hc3 : ¬cond0_3 i) :
    sout0_B_2 c i arg3 harg3 arg4 harg4 arg5 harg5 arg6 harg6 arg7 harg7 arg8 harg8 arg9 harg9 arg10 harg10 arg11 harg11 hc0 hc1 hc2 hc3 x0 x1 xs0 xs1 xs2 xs3 xs4 = k0_pay13 (k0_pay8 x0) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_B
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutB3 (hc0 : ¬cond0_0 i) (hc1 : ¬cond0_1 i) (hc2 : cond0_2 i) (hc3 : ¬cond0_3 i) :
    sout0_B_3 c i arg3 harg3 arg4 harg4 arg5 harg5 arg6 harg6 arg7 harg7 arg8 harg8 arg9 harg9 arg10 harg10 arg11 harg11 hc0 hc1 hc2 hc3 x0 x1 xs0 xs1 xs2 xs3 xs4 = k0_pay14 (k0_pay8 x0) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_B
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutB4 (hc0 : ¬cond0_0 i) (hc1 : ¬cond0_1 i) (hc2 : cond0_2 i) (hc3 : ¬cond0_3 i) :
    sout0_B_4 c i arg3 harg3 arg4 harg4 arg5 harg5 arg6 harg6 arg7 harg7 arg8 harg8 arg9 harg9 arg10 harg10 arg11 harg11 hc0 hc1 hc2 hc3 x0 x1 xs0 xs1 xs2 xs3 xs4 = k0_pay15 (k0_pay8 x0) xs4 := by
  unfold sout0_B_4
  rw [View.read_writes_eq_canon _ _ _ (scover0_B_4 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_B
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutC0 (hc0 : ¬cond0_0 i) (hc1 : cond0_1 i) (hc2 : ¬cond0_2 i) (hc3 : ¬cond0_3 i) :
    sout0_C_0 c i arg3 harg3 arg4 harg4 arg5 harg5 arg6 harg6 arg7 harg7 arg8 harg8 arg9 harg9 arg10 harg10 arg11 harg11 hc0 hc1 hc2 hc3 x0 x1 xs0 xs1 = k0_pay10 (k0_pay9 x0 x1 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 hc2 hc3 x0 x1 xs0 xs1)]
  unfold kernelRun0_C
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutC1 (hc0 : ¬cond0_0 i) (hc1 : cond0_1 i) (hc2 : ¬cond0_2 i) (hc3 : ¬cond0_3 i) :
    sout0_C_1 c i arg3 harg3 arg4 harg4 arg5 harg5 arg6 harg6 arg7 harg7 arg8 harg8 arg9 harg9 arg10 harg10 arg11 harg11 hc0 hc1 hc2 hc3 x0 x1 xs0 xs1 = xs1 := rfl

theorem soutC2 (hc0 : ¬cond0_0 i) (hc1 : cond0_1 i) (hc2 : ¬cond0_2 i) (hc3 : ¬cond0_3 i) :
    sout0_C_2 c i arg3 harg3 arg4 harg4 arg5 harg5 arg6 harg6 arg7 harg7 arg8 harg8 arg9 harg9 arg10 harg10 arg11 harg11 hc0 hc1 hc2 hc3 x0 x1 xs0 xs1 = k0_pay13 (k0_pay8 x0) (k0_pay5 (F := F)) := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 hc2 hc3 x0 x1 xs0 xs1)]
  unfold kernelRun0_C
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutC3 (hc0 : ¬cond0_0 i) (hc1 : cond0_1 i) (hc2 : ¬cond0_2 i) (hc3 : ¬cond0_3 i) :
    sout0_C_3 c i arg3 harg3 arg4 harg4 arg5 harg5 arg6 harg6 arg7 harg7 arg8 harg8 arg9 harg9 arg10 harg10 arg11 harg11 hc0 hc1 hc2 hc3 x0 x1 xs0 xs1 = k0_pay14 (k0_pay8 x0) (k0_pay6 (F := F)) := by
  unfold sout0_C_3
  rw [View.read_writes_eq_canon _ _ _ (scover0_C_3 c i arg3 harg3 arg4 harg4 arg5 harg5 arg6 harg6 arg7 harg7 arg8 harg8 arg9 harg9 arg10 harg10 arg11 harg11 hc0 hc1 hc2 hc3 x0 x1 xs0 xs1)]
  unfold kernelRun0_C
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutC4 (hc0 : ¬cond0_0 i) (hc1 : cond0_1 i) (hc2 : ¬cond0_2 i) (hc3 : ¬cond0_3 i) :
    sout0_C_4 c i arg3 harg3 arg4 harg4 arg5 harg5 arg6 harg6 arg7 harg7 arg8 harg8 arg9 harg9 arg10 harg10 arg11 harg11 hc0 hc1 hc2 hc3 x0 x1 xs0 xs1 = k0_pay15 (k0_pay8 x0) (k0_pay7 (F := F)) := by
  unfold sout0_C_4
  rw [View.read_writes_eq_canon _ _ _ (scover0_C_4 c i arg3 harg3 arg4 harg4 arg5 harg5 arg6 harg6 arg7 harg7 arg8 harg8 arg9 harg9 arg10 harg10 arg11 harg11 hc0 hc1 hc2 hc3 x0 x1 xs0 xs1)]
  unfold kernelRun0_C
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutD0 (hc0 : ¬cond0_0 i) (hc1 : ¬cond0_1 i) (hc2 : cond0_2 i) (hc3 : cond0_3 i) :
    sout0_D_0 c i arg3 harg3 arg4 harg4 arg5 harg5 arg6 harg6 arg7 harg7 arg8 harg8 arg9 harg9 arg10 harg10 arg11 harg11 hc0 hc1 hc2 hc3 x0 x1 xs0 xs1 xs2 xs3 xs4 = k0_pay10 (k0_pay9 x0 x1 xs0) := by
  unfold sout0_D_0
  rw [View.read_writes_eq_canon _ _ _ (scover0_D_0 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutD1 (hc0 : ¬cond0_0 i) (hc1 : ¬cond0_1 i) (hc2 : cond0_2 i) (hc3 : cond0_3 i) :
    sout0_D_1 c i arg3 harg3 arg4 harg4 arg5 harg5 arg6 harg6 arg7 harg7 arg8 harg8 arg9 harg9 arg10 harg10 arg11 harg11 hc0 hc1 hc2 hc3 x0 x1 xs0 xs1 xs2 xs3 xs4 = k0_pay16 (k0_pay14 (k0_pay8 x0) xs3) (k0_pay15 (k0_pay8 x0) xs4) (k0_pay13 (k0_pay8 x0) xs2) xs1 := by
  unfold sout0_D_1
  rw [View.read_writes_eq_canon _ _ _ (scover0_D_1 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S1x1) hz2]
    | rw [View.canon_cons_unit_zero (S := S1x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutD2 (hc0 : ¬cond0_0 i) (hc1 : ¬cond0_1 i) (hc2 : cond0_2 i) (hc3 : cond0_3 i) :
    sout0_D_2 c i arg3 harg3 arg4 harg4 arg5 harg5 arg6 harg6 arg7 harg7 arg8 harg8 arg9 harg9 arg10 harg10 arg11 harg11 hc0 hc1 hc2 hc3 x0 x1 xs0 xs1 xs2 xs3 xs4 = k0_pay13 (k0_pay8 x0) xs2 := by
  unfold sout0_D_2
  rw [View.read_writes_eq_canon _ _ _ (scover0_D_2 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutD3 (hc0 : ¬cond0_0 i) (hc1 : ¬cond0_1 i) (hc2 : cond0_2 i) (hc3 : cond0_3 i) :
    sout0_D_3 c i arg3 harg3 arg4 harg4 arg5 harg5 arg6 harg6 arg7 harg7 arg8 harg8 arg9 harg9 arg10 harg10 arg11 harg11 hc0 hc1 hc2 hc3 x0 x1 xs0 xs1 xs2 xs3 xs4 = k0_pay14 (k0_pay8 x0) xs3 := by
  unfold sout0_D_3
  rw [View.read_writes_eq_canon _ _ _ (scover0_D_3 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem soutD4 (hc0 : ¬cond0_0 i) (hc1 : ¬cond0_1 i) (hc2 : cond0_2 i) (hc3 : cond0_3 i) :
    sout0_D_4 c i arg3 harg3 arg4 harg4 arg5 harg5 arg6 harg6 arg7 harg7 arg8 harg8 arg9 harg9 arg10 harg10 arg11 harg11 hc0 hc1 hc2 hc3 x0 x1 xs0 xs1 xs2 xs3 xs4 = k0_pay15 (k0_pay8 x0) xs4 := by
  unfold sout0_D_4
  rw [View.read_writes_eq_canon _ _ _ (scover0_D_4 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S7x1) hz2]
    | rw [View.canon_cons_unit_zero (S := S7x1) hz2]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem outD2 (hc0 : ¬cond0_0 i) (hc1 : ¬cond0_1 i) (hc2 : cond0_2 i) (hc3 : cond0_3 i) :
    out0_D_2 c i arg3 harg3 arg4 harg4 arg5 harg5 arg6 harg6 arg7 harg7 arg8 harg8 arg9 harg9 arg10 harg10 arg11 harg11 hc0 hc1 hc2 hc3 x0 x1 xs0 xs1 xs2 xs3 xs4 = k0_pay1 (k0_pay10 (k0_pay9 x0 x1 xs0)) := by
  unfold out0_D_2
  rw [View.read_writes_eq_canon _ _ _ (cover0_D_2 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S1x1x128) hz3]
    | rw [View.canon_cons_unit_zero (S := S1x1x128) hz3]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

theorem outD3 (hc0 : ¬cond0_0 i) (hc1 : ¬cond0_1 i) (hc2 : cond0_2 i) (hc3 : cond0_3 i) :
    out0_D_3 c i arg3 harg3 arg4 harg4 arg5 harg5 arg6 harg6 arg7 harg7 arg8 harg8 arg9 harg9 arg10 harg10 arg11 harg11 hc0 hc1 hc2 hc3 x0 x1 xs0 xs1 xs2 xs3 xs4 = k0_pay2 (k0_pay16 (k0_pay14 (k0_pay8 x0) xs3) (k0_pay15 (k0_pay8 x0) xs4) (k0_pay13 (k0_pay8 x0) xs2) xs1) := by
  unfold out0_D_3
  rw [View.read_writes_eq_canon _ _ _ (cover0_D_3 c i arg3 harg3 arg4 harg4 arg5 harg5 arg6 harg6 arg7 harg7 arg8 harg8 arg9 harg9 arg10 harg10 arg11 harg11 hc0 hc1 hc2 hc3 x0 x1 xs0 xs1 xs2 xs3 xs4)]
  unfold kernelRun0_D
  dsimp only
  sl_unfold_words
  first
    | rw [View.canon_unit_zero (S := S1x1x128) hz3]
    | rw [View.canon_cons_unit_zero (S := S1x1x128) hz3]
  all_goals simp only [View.readAt_eq_ld, harg3.read_unread, harg4.read_unread, harg7.read_unread, harg8.read_unread, harg9.read_unread,
    harg10.read_unread, harg11.read_unread, View.ld_unit_zero (S := S1x8x256x512) hz4, View.ld_unit_zero (S := S1x1) hz2,
    View.ld_unit_zero (S := S7x1) hz2, View.readCov_unit_zero (S := S7x1) _ hz2, View.readCov_unit_zero (S := S1x1) _ hz2]

end Cert.KernelIdeal.KValue

end
-- ==== Proof.Spec.lean ====
/-
  The mathematics both programs compute, stated once over the extended reals.

  Inputs: two arrays `A0` (probabilities) and `A1` (targets) indexed by (batch, channel, row, lane) in 16 × 8 × 512 × 512.
  Result: `tail S C` of two scalars,
    S = the sum over every element of the clamped cross-entropy term, and
    C = the sum over the 16 × 7 (batch, adjacent channel pair)s of the cosine  dot / (max (√‖a‖²) ε · max (√‖b‖²) ε).
  The reference takes S as one sum over the flattened array and C pairwise over 16 × 7 rows of length 262144.
  The kernel visits 32 grid points n = 16·g + 2·b + h (g < 2 the core, b < 8 the batch within the core, h < 2 the
  half of the rows); at point n it sees the block  batch n / 2, all channels, rows 256·(n % 2) … + 255, and carries five
  accumulators from point to point: they are `Acc` and `stepAcc` below, and `acc n` is their state after point n.
-/
import proofs.«142088_j50259707298726_2_alg».proof.Proof.Gen.ReferenceIdeal.Read
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

/-- The whole array's shape and one grid point's block of it. -/
abbrev SArr : Shape := ⟨4, ![16, 8, 512, 512]⟩
abbrev SBlk : Shape := ⟨4, ![1, 8, 256, 512]⟩
abbrev S0 : Shape := ⟨0, ![]⟩

/-- The literals both programs share: the clamp -100, the ε of the cosine, zero and one. -/
def cNeg100 : EReal := Ideal.ofBits .f32 0xC2C80000#32
def cEps : EReal := Ideal.ofBits .f32 0x322BCC77#32
def cOne : EReal := Ideal.ofBits .f32 0x3F800000#32

/-- The clamped logarithms of one probability. -/
def clog (p : EReal) : EReal := max (Ideal.log p) cNeg100
def clog1m (p : EReal) : EReal := max (Ideal.log1p (-p)) cNeg100

/-- One element's term as the kernel spells it, t·(log p − log(1−p)) + log(1−p), and as the reference does,
    t·log p + (1−t)·log(1−p). -/
def termK (p t : EReal) : EReal := t * (clog p - clog1m p) + clog1m p
def termR (p t : EReal) : EReal := t * clog p + (cOne - t) * clog1m p

/-- One (batch, channel pair)'s cosine from its three sums. -/
def cosOf (dot na nb : EReal) : EReal := Ideal.div dot (max (Ideal.sqrt na) cEps * max (Ideal.sqrt nb) cEps)

/-! ## What one grid point adds, from its two blocks -/

/-- The cross-entropy terms of one block, summed. -/
def s3 (x0 x1 : SBlk.Idx → EReal) : EReal :=
  ∑ ch : Fin 8, ∑ r : Fin 256, ∑ w : Fin 512, termK (x0 (ix4 0 ch r w)) (x1 (ix4 0 ch r w))

/-- Channel pair `j` = (channel j, channel j + 1): the block's contribution to its dot product and two squared norms. -/
def dot3 (x0 : SBlk.Idx → EReal) (j : Fin 7) : EReal :=
  ∑ r : Fin 256, ∑ w : Fin 512, x0 (ix4 0 j.castSucc r w) * x0 (ix4 0 j.succ r w)
def na3 (x0 : SBlk.Idx → EReal) (j : Fin 7) : EReal :=
  ∑ r : Fin 256, ∑ w : Fin 512, x0 (ix4 0 j.castSucc r w) * x0 (ix4 0 j.castSucc r w)
def nb3 (x0 : SBlk.Idx → EReal) (j : Fin 7) : EReal :=
  ∑ r : Fin 256, ∑ w : Fin 512, x0 (ix4 0 j.succ r w) * x0 (ix4 0 j.succ r w)

/-- The seven cosines of one batch, summed. -/
def cosRow (dot na nb : Fin 7 → EReal) : EReal := ∑ j : Fin 7, cosOf (dot j) (na j) (nb j)

/-! ## The accumulators carried across grid points -/

/-- After a grid point: the core's running cross-entropy sum and cosine sum, and the current batch's running dot
    products and squared norms per channel pair. -/
structure Acc where
  bce : EReal
  sim : EReal
  dot : Fin 7 → EReal
  na : Fin 7 → EReal
  nb : Fin 7 → EReal

/-- Point `n` = 16·g + 2·b + h on blocks `x0`, `x1`, from the state `a` the point before left: the core's sums restart
    at a core's first point (n % 16 = 0), the batch's at a batch's first half (n % 2 = 0); every point adds its block;
    a batch's second half (n % 2 = 1) adds the batch's seven cosines to the core's cosine sum. -/
def stepAcc (n : ℕ) (x0 x1 : SBlk.Idx → EReal) (a : Acc) : Acc :=
  let dot1 : Fin 7 → EReal := fun j => (if n % 2 = 0 then 0 else a.dot j) + dot3 x0 j
  let na1 : Fin 7 → EReal := fun j => (if n % 2 = 0 then 0 else a.na j) + na3 x0 j
  let nb1 : Fin 7 → EReal := fun j => (if n % 2 = 0 then 0 else a.nb j) + nb3 x0 j
  let sim0 : EReal := if n % 16 = 0 then 0 else a.sim
  { bce := (if n % 16 = 0 then 0 else a.bce) + s3 x0 x1
    sim := if n % 2 = 1 then sim0 + cosRow dot1 na1 nb1 else sim0
    dot := dot1, na := na1, nb := nb1 }

/-- The state after point `n`, the blocks given per point. -/
def acc (b0 b1 : ℕ → SBlk.Idx → EReal) : ℕ → Acc
  | 0 => stepAcc 0 (b0 0) (b1 0) ⟨0, 0, fun _ => 0, fun _ => 0, fun _ => 0⟩
  | n + 1 => stepAcc (n + 1) (b0 (n + 1)) (b1 (n + 1)) (acc b0 b1 n)

theorem acc_zero (b0 b1 : ℕ → SBlk.Idx → EReal) :
    acc b0 b1 0 = stepAcc 0 (b0 0) (b1 0) ⟨0, 0, fun _ => 0, fun _ => 0, fun _ => 0⟩ := rfl
theorem acc_succ (b0 b1 : ℕ → SBlk.Idx → EReal) (n : ℕ) :
    acc b0 b1 (n + 1) = stepAcc (n + 1) (b0 (n + 1)) (b1 (n + 1)) (acc b0 b1 n) := rfl

/-- Where point `n`'s block sits in the array: batch (n / 2), every channel, rows 256·(n % 2) + r. (The batch is taken
    mod 16 so that the definition is total; the grid has n < 32.) -/
def blkIdx (n : ℕ) (y : SBlk.Idx) : SArr.Idx :=
  ix4 ⟨(n / 2) % 16, Nat.mod_lt _ (by norm_num)⟩ (y 1)
    ⟨(n % 2) * 256 + (y 2).val, by have h := (y 2).isLt; have h2 : n % 2 < 2 := Nat.mod_lt _ (by norm_num); show _ < 512; change (y 2).val < 256 at h; omega⟩
    (y 3)

/-- Point `n`'s block of an array. -/
def blkOf (A : SArr.Idx → EReal) (n : ℕ) : SBlk.Idx → EReal := fun y => A (blkIdx n y)

/-! ## The two scalars, as each program arranges them -/

/-- The kernel: each core's sums after its last point (n = 16·g + 15), the two cores added on the host from zero. -/
def bceK (A0 A1 : SArr.Idx → EReal) : EReal :=
  Ideal.ofBits .f32 0x00000000#32 + ∑ g : Fin 2, (acc (blkOf A0) (blkOf A1) (16 * g.val + 15)).bce
def simK (A0 A1 : SArr.Idx → EReal) : EReal :=
  Ideal.ofBits .f32 0x00000000#32 + ∑ g : Fin 2, (acc (blkOf A0) (blkOf A1) (16 * g.val + 15)).sim

open Cert.ReferenceIdeal in
/-- The reference: one sum over the flattened array (flat position j is element `idx_main_v0 j`), from zero. -/
def bceR (A0 A1 : SArr.Idx → EReal) : EReal :=
  Ideal.ofBits .f32 0x00000000#32 + ∑ j : S33554432.Idx, termR (A0 (Read.idx_main_v0 j)) (A1 (Read.idx_main_v0 j))

open Cert.ReferenceIdeal in
/-- Row `k` of (batch, pair) `i` in the array reshaped to 16 × 8 × 262144: the pair's first and second channel. -/
def pairA (i : S16x7.Idx) (k : Fin 262144) : SArr.Idx := Read.idx_main_v23 (Read.idx_main_v24 (Read.idx_main_v27 i k))
open Cert.ReferenceIdeal in
def pairB (i : S16x7.Idx) (k : Fin 262144) : SArr.Idx := Read.idx_main_v23 (Read.idx_main_v25 (Read.idx_main_v27 i k))

open Cert.ReferenceIdeal in
/-- The reference: the cosines of all 16 × 7 (batch, pair)s, each from three sums over 262144 positions, summed from zero. -/
def simR (A0 : SArr.Idx → EReal) : EReal :=
  Ideal.ofBits .f32 0x00000000#32 + ∑ i : S16x7.Idx,
    cosOf (Ideal.ofBits .f32 0x00000000#32 + ∑ k : Fin 262144, A0 (pairA i k) * A0 (pairB i k))
      (Ideal.ofBits .f32 0x00000000#32 + ∑ k : Fin 262144, A0 (pairA i k) * A0 (pairA i k))
      (Ideal.ofBits .f32 0x00000000#32 + ∑ k : Fin 262144, A0 (pairB i k) * A0 (pairB i k))

/-- What both programs do with the two sums on the host: with m = −(S / 2²⁵),
    ½ · (1 − exp(−m))² · m + (C · 2) / 128. -/
def tail (s b : (⟨S0, .f32⟩ : BufTy).Contents (Elt Ideal)) : (⟨S0, .f32⟩ : BufTy).Contents (Elt Ideal) :=
  addf (mulf (mulf (constant (F := Ideal) S0 .f32 0x3F000000#32)
      (Host.powf (subf (constant (F := Ideal) S0 .f32 0x3F800000#32)
        (Host.exp (Host.negf (Host.negf (Host.divf s (constant (F := Ideal) S0 .f32 0x4C000000#32))))))
        (constant (F := Ideal) S0 .f32 0x40000000#32)))
      (Host.negf (Host.divf s (constant (F := Ideal) S0 .f32 0x4C000000#32))))
    (Host.divf (mulf b (constant (F := Ideal) S0 .f32 0x40000000#32)) (constant (F := Ideal) S0 .f32 0x43000000#32))

end Cert.Bridge

end
-- ==== Proof.Blocks.lean ====
/-
  The two input blocks a grid point sees, as parts of the argument arrays: point t = 16·g + 2·b + h reads batch
  t / 2 = 8·g + b, every channel, rows 256·(t % 2) … 256·(t % 2) + 255, every lane.
-/
import proofs.«142088_j50259707298726_2_alg».proof.Proof.Gen.KernelIdeal.Frame
import proofs.«142088_j50259707298726_2_alg».proof.Proof.Spec
import Idealize.ShloMosaic.Lib.Pipeline.Value

set_option maxRecDepth 16384

noncomputable section

namespace Cert.KernelIdeal.KValue

open Idealize.ShloMosaic Idealize.ShloMosaic.TcCoe Idealize.SL.Sem
open Cert.KernelIdeal Cert.KernelIdeal.Gen Cert.Bridge

variable (m : (ℓ : Loc nD τ sig) → Buf (Elt Ideal) ℓ)

/-- The first input's index map over the grid: block (t / 2, 0, t % 2, 0). -/
theorem idx_facts0 : ∀ t : Fin cfg0.N, win0_0.index t 0 = t.val / 2 ∧ win0_0.index t 1 = 0 ∧ win0_0.index t 2 = t.val % 2 ∧ win0_0.index t 3 = 0 :=
  (by decide +kernel : ∀ t : Fin grid0.N, win0_0.index t 0 = t.val / 2 ∧ win0_0.index t 1 = 0 ∧ win0_0.index t 2 = t.val % 2 ∧ win0_0.index t 3 = 0)

/-- The second input's is the same. -/
theorem idx_facts1 : ∀ t : Fin cfg0.N, win0_1.index t 0 = t.val / 2 ∧ win0_1.index t 1 = 0 ∧ win0_1.index t 2 = t.val % 2 ∧ win0_1.index t 3 = 0 :=
  (by decide +kernel : ∀ t : Fin grid0.N, win0_1.index t 0 = t.val / 2 ∧ win0_1.index t 1 = 0 ∧ win0_1.index t 2 = t.val % 2 ∧ win0_1.index t 3 = 0)

/-- The first input's block at point `t` is that part of the first argument array. -/
theorem iblk0_eq (c : Dev nD) (t : Fin cfg0.N) :
    (iblk m c 0 t : Vec Ideal S1x8x256x512 .f32) = blkOf (V m c main_arg0) t.val := by
  funext y
  unfold iblk blkOf
  rw [View.read_apply]
  show V m c main_arg0 _ = V m c main_arg0 _
  congr 1
  funext a
  apply Fin.ext
  obtain ⟨h0, h1, h2, h3⟩ := idx_facts0 t
  have hN : t.val < 32 := lt_of_lt_of_eq t.isLt (show cfg0.N = 32 from N_0)
  have y0 : (y 0).val < 1 := (y 0).isLt
  match a with
  | ⟨0, _⟩ => show win0_0.index t 0 * 1 + 1 * (y 0).val = (t.val / 2) % 16; rw [h0]; omega
  | ⟨1, _⟩ => show win0_0.index t 1 * 8 + 1 * (y 1).val = (y 1).val; rw [h1]; omega
  | ⟨2, _⟩ => show win0_0.index t 2 * 256 + 1 * (y 2).val = (t.val % 2) * 256 + (y 2).val; rw [h2]; omega
  | ⟨3, _⟩ => show win0_0.index t 3 * 512 + 1 * (y 3).val = (y 3).val; rw [h3]; omega

/-- The second input's block at point `t` is the same part of the second argument array. -/
theorem iblk1_eq (c : Dev nD) (t : Fin cfg0.N) :
    (iblk m c 1 t : Vec Ideal S1x8x256x512 .f32) = blkOf (V m c main_arg1) t.val := by
  funext y
  unfold iblk blkOf
  rw [View.read_apply]
  show V m c main_arg1 _ = V m c main_arg1 _
  congr 1
  funext a
  apply Fin.ext
  obtain ⟨h0, h1, h2, h3⟩ := idx_facts1 t
  have hN : t.val < 32 := lt_of_lt_of_eq t.isLt (show cfg0.N = 32 from N_0)
  have y0 : (y 0).val < 1 := (y 0).isLt
  match a with
  | ⟨0, _⟩ => show win0_1.index t 0 * 1 + 1 * (y 0).val = (t.val / 2) % 16; rw [h0]; omega
  | ⟨1, _⟩ => show win0_1.index t 1 * 8 + 1 * (y 1).val = (y 1).val; rw [h1]; omega
  | ⟨2, _⟩ => show win0_1.index t 2 * 256 + 1 * (y 2).val = (t.val % 2) * 256 + (y 2).val; rw [h2]; omega
  | ⟨3, _⟩ => show win0_1.index t 3 * 512 + 1 * (y 3).val = (y 3).val; rw [h3]; omega

end Cert.KernelIdeal.KValue

end
-- ==== Proof.Payload.lean ====
/-
  The kernel body's arithmetic, read at the extended reals: each stored value as a closed expression of the values the
  body loaded. The zero splats are the constant 0; the two output blocks repeat a scalar on every lane; each running
  accumulator gains its block's sum (the cross-entropy terms, the dot products and squared norms of adjacent channels,
  the seven cosines of a batch).
-/
import proofs.«142088_j50259707298726_2_alg».proof.Proof.Gen.KernelIdeal.Skeleton
import proofs.«142088_j50259707298726_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Cert.Bridge Idealize.ShloMosaic Idealize.ShloMosaic.ValueIdx

/-! ## The zero splats

A splat of the f32 zero pattern, cast to its own shape, is the constant 0. -/

theorem pay3_eq : k0_pay3 (F := Ideal) = fun _ => (0 : EReal) :=
  (shapeCast_self _ _).trans (funext fun _ => Ideal.ofBits_zero_f32)

theorem pay4_eq : k0_pay4 (F := Ideal) = fun _ => (0 : EReal) :=
  (shapeCast_self _ _).trans (funext fun _ => Ideal.ofBits_zero_f32)

theorem pay5_eq : k0_pay5 (F := Ideal) = fun _ => (0 : EReal) :=
  (shapeCast_self _ _).trans (funext fun _ => Ideal.ofBits_zero_f32)

theorem pay6_eq : k0_pay6 (F := Ideal) = fun _ => (0 : EReal) :=
  (shapeCast_self _ _).trans (funext fun _ => Ideal.ofBits_zero_f32)

theorem pay7_eq : k0_pay7 (F := Ideal) = fun _ => (0 : EReal) :=
  (shapeCast_self _ _).trans (funext fun _ => Ideal.ofBits_zero_f32)

/-! ## A cast to the same shape -/

theorem pay10_eq (a : FVec Ideal S1x1 .f32) : k0_pay10 a = a :=
  shapeCast_self a _

/-! ## A scalar repeated on the 128 lanes of an output block -/

/-- A [1,1] value viewed [1,1,1] and broadcast to [1,1,128] reads its one element at every lane. -/
theorem pay1_eq (a : Vec Ideal S1x1 .f32) : k0_pay1 a = fun _ => a (ix2 0 0) := by
  funext j
  unfold k0_pay1
  refine (broadcastTo_apply _ _ j (ix3 0 0 0) fun c => ?_).trans ?_
  · match c with
    | ⟨0, _⟩ => rfl
    | ⟨1, _⟩ => rfl
    | ⟨2, _⟩ => rfl
  · exact shapeCast_apply a _ _ _ rfl

theorem pay2_eq (a : Vec Ideal S1x1 .f32) : k0_pay2 a = fun _ => a (ix2 0 0) := by
  funext j
  unfold k0_pay2
  refine (broadcastTo_apply _ _ j (ix3 0 0 0) fun c => ?_).trans ?_
  · match c with
    | ⟨0, _⟩ => rfl
    | ⟨1, _⟩ => rfl
    | ⟨2, _⟩ => rfl
  · exact shapeCast_apply a _ _ _ rfl

/-! ## Reading the block, its two channel slices, and a row-and-lane sum at coordinates -/

/-- The block with its unit batch axis dropped reads (0, c, r, w) at (c, r, w). -/
theorem pay8_apply (x0 : Vec Ideal S1x8x256x512 .f32) (c : Fin 8) (r : Fin 256) (w : Fin 512) :
    k0_pay8 x0 (ix3 c r w) = x0 (ix4 0 c r w) :=
  shapeCast_1abc_abc_apply x0 _ c r w

/-- The slice of channels 0…6 reads channel j at j. -/
theorem pay11_apply (v : FVec Ideal S8x256x512 .f32) (j : Fin 7) (r : Fin 256) (w : Fin 512) :
    k0_pay11 v (ix3 j r w) = v (ix3 j.castSucc r w) :=
  extractStridedSlice_apply _ v slices_S8x256x512_o0_0_0_S7x256x512 (ix3 j r w) (ix3 j.castSucc r w) fun a =>
    match a with
    | ⟨0, _⟩ => (Nat.zero_add _).symm
    | ⟨1, _⟩ => (Nat.zero_add _).symm
    | ⟨2, _⟩ => (Nat.zero_add _).symm

/-- The slice of channels 1…7 reads channel j + 1 at j. -/
theorem pay12_apply (v : FVec Ideal S8x256x512 .f32) (j : Fin 7) (r : Fin 256) (w : Fin 512) :
    k0_pay12 v (ix3 j r w) = v (ix3 j.succ r w) :=
  extractStridedSlice_apply _ v slices_S8x256x512_o1_0_0_S7x256x512 (ix3 j r w) (ix3 j.succ r w) fun a =>
    match a with
    | ⟨0, _⟩ => Nat.add_comm _ _
    | ⟨1, _⟩ => (Nat.zero_add _).symm
    | ⟨2, _⟩ => (Nat.zero_add _).symm

/-- Two successive one-axis sums, over the lanes and then over the rows, of an [n, R, W] array, the result viewed
    [n, 1]: at (p, q) the double sum over the rows and lanes of slab p. -/
theorem rowLaneSum_apply {n R W : ℕ} (v : FVec Ideal ⟨3, ![n, R, W]⟩ .f32)
    (h2 : Shape.Reduces ⟨3, ![n, R, W]⟩ [2] ⟨2, ![n, R]⟩) (h1 : Shape.Reduces ⟨2, ![n, R]⟩ [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (q : Fin 1) :
    shapeCast ⟨2, ![n, 1]⟩
        (multiReduction .add [1] ⟨1, ![n]⟩ (multiReduction .add [2] ⟨2, ![n, R]⟩ v 0x00000000#32 h2 hφ hacc)
          0x00000000#32 h1 hφ hacc) hc (ix2 p q)
      = ∑ r : Fin R, ∑ w : Fin W, v (ix3 p r w) := by
  refine (shapeCast_apply _ hc (ix2 p q) (ix1 p) ?_).trans ?_
  · rw [Shape.rowMajor_val_one, Shape.rowMajor_val_two]
    have hq := q.isLt
    show p.val = p.val * 1 + q.val
    omega
  · refine (Ideal.multiReduction_add_single _ _ h1 hφ hacc (ix1 p)).trans ?_
    refine Finset.sum_congr rfl fun r _ => ?_
    have e1 : h1.lift (ix1 p) r = ix2 p r :=
      funext fun c => match c with | ⟨0, _⟩ => Fin.ext rfl | ⟨1, _⟩ => Fin.ext rfl
    rw [e1]
    refine (Ideal.multiReduction_add_single _ _ h2 hφ hacc (ix2 p r)).trans ?_
    refine Finset.sum_congr rfl fun w _ => ?_
    have e2 : h2.lift (ix2 p r) w = ix3 p r w :=
      funext fun c => match c with | ⟨0, _⟩ => Fin.ext rfl | ⟨1, _⟩ => Fin.ext rfl | ⟨2, _⟩ => Fin.ext rfl
    exact congrArg v e2

/-! ## The three per-pair accumulators -/

/-- The running dot product of channel pair j gains the block's sum of products of channels j and j + 1. -/
theorem pay13_eq (x0 : Vec Ideal S1x8x256x512 .f32) (a : Vec Ideal S7x1 .f32) :
    k0_pay13 (k0_pay8 x0) a = fun y => a y + dot3 x0 (y 0) := by
  funext y
  obtain ⟨p, q, rfl⟩ : ∃ (p : Fin 7) (q : Fin 1), y = ix2 p q := ⟨y 0, y 1, eq_ix2 y⟩
  unfold k0_pay13
  refine (congrFun (shapeCast_self _ _) (ix2 p q)).trans ?_
  show a (ix2 p q) + _ = a (ix2 p q) + dot3 x0 p
  refine congrArg (a (ix2 p q) + ·) ?_
  refine (rowLaneSum_apply _ _ _ _ _ _ p q).trans ?_
  unfold dot3
  refine Finset.sum_congr rfl fun r _ => Finset.sum_congr rfl fun w _ => ?_
  show k0_pay11 (k0_pay8 x0) (ix3 p r w) * k0_pay12 (k0_pay8 x0) (ix3 p r w) = _
  rw [pay11_apply, pay12_apply, pay8_apply, pay8_apply]

/-- The running squared norm of the pair's first channel gains the block's sum of squares of channel j. -/
theorem pay14_eq (x0 : Vec Ideal S1x8x256x512 .f32) (a : Vec Ideal S7x1 .f32) :
    k0_pay14 (k0_pay8 x0) a = fun y => a y + na3 x0 (y 0) := by
  funext y
  obtain ⟨p, q, rfl⟩ : ∃ (p : Fin 7) (q : Fin 1), y = ix2 p q := ⟨y 0, y 1, eq_ix2 y⟩
  unfold k0_pay14
  refine (congrFun (shapeCast_self _ _) (ix2 p q)).trans ?_
  show a (ix2 p q) + _ = a (ix2 p q) + na3 x0 p
  refine congrArg (a (ix2 p q) + ·) ?_
  refine (rowLaneSum_apply _ _ _ _ _ _ p q).trans ?_
  unfold na3
  refine Finset.sum_congr rfl fun r _ => Finset.sum_congr rfl fun w _ => ?_
  show k0_pay11 (k0_pay8 x0) (ix3 p r w) * k0_pay11 (k0_pay8 x0) (ix3 p r w) = _
  rw [pay11_apply, pay8_apply]

/-- The running squared norm of the pair's second channel gains the block's sum of squares of channel j + 1. -/
theorem pay15_eq (x0 : Vec Ideal S1x8x256x512 .f32) (a : Vec Ideal S7x1 .f32) :
    k0_pay15 (k0_pay8 x0) a = fun y => a y + nb3 x0 (y 0) := by
  funext y
  obtain ⟨p, q, rfl⟩ : ∃ (p : Fin 7) (q : Fin 1), y = ix2 p q := ⟨y 0, y 1, eq_ix2 y⟩
  unfold k0_pay15
  refine (congrFun (shapeCast_self _ _) (ix2 p q)).trans ?_
  show a (ix2 p q) + _ = a (ix2 p q) + nb3 x0 p
  refine congrArg (a (ix2 p q) + ·) ?_
  refine (rowLaneSum_apply _ _ _ _ _ _ p q).trans ?_
  unfold nb3
  refine Finset.sum_congr rfl fun r _ => Finset.sum_congr rfl fun w _ => ?_
  show k0_pay12 (k0_pay8 x0) (ix3 p r w) * k0_pay12 (k0_pay8 x0) (ix3 p r w) = _
  rw [pay12_apply, pay8_apply]

/-! ## A column summed to one element -/

/-- The sum over the first axis of an [n, 1] column, the one-element result viewed [1, 1]: the sum of the column's
    n elements, at the one index. -/
theorem colSum_apply {n : ℕ} (v : FVec Ideal ⟨2, ![n, 1]⟩ .f32)
    (h : Shape.Reduces ⟨2, ![n, 1]⟩ [0] ⟨1, ![1]⟩)
    (hφ : FKind.Formats .f32) (hacc : (0x00000000#32 : BitVec 32) = FKind.add.neutral .f32 hφ)
    (hc : (⟨1, ![1]⟩ : Shape).ShapeCasts ⟨2, ![1, 1]⟩) (i : (⟨2, ![1, 1]⟩ : Shape).Idx) :
    shapeCast ⟨2, ![1, 1]⟩ (multiReduction .add [0] ⟨1, ![1]⟩ v 0x00000000#32 h hφ hacc) hc i
      = ∑ k : Fin n, v (ix2 k 0) := by
  refine (shapeCast_apply _ hc i (ix1 0) ?_).trans ?_
  · rw [Shape.rowMajor_val_one, Shape.rowMajor_val_two]
    have h0 := idx2_lt0 i
    have h1 := idx2_lt1 i
    show (0 : ℕ) = (i 0).val * 1 + (i 1).val
    omega
  · refine (Ideal.multiReduction_add_single _ _ h hφ hacc (ix1 0)).trans ?_
    refine Finset.sum_congr rfl fun k _ => ?_
    have e : h.lift (ix1 0) k = ix2 k 0 :=
      funext fun c => match c with | ⟨0, _⟩ => Fin.ext rfl | ⟨1, _⟩ => Fin.ext rfl
    exact congrArg v e

/-! ## The cosine accumulator -/

/-- The core's running cosine sum gains the seven cosines of the batch, each from its pair's three sums. -/
theorem pay16_eq (na nb dot : Vec Ideal S7x1 .f32) (s : Vec Ideal S1x1 .f32) :
    k0_pay16 na nb dot s = fun i => s i +
      cosRow (fun j => dot (ix2 j 0)) (fun j => na (ix2 j 0)) (fun j => nb (ix2 j 0)) := by
  funext i
  unfold k0_pay16
  refine (congrFun (shapeCast_self _ _) i).trans ?_
  show s i + _ = s i + _
  refine congrArg (s i + ·) ?_
  refine (colSum_apply _ _ _ _ _ i).trans ?_
  rfl

/-! ## The cross-entropy accumulator -/

/-- The core's running cross-entropy sum gains the block's sum of clamped terms. -/
theorem pay9_eq (x0 x1 : Vec Ideal S1x8x256x512 .f32) (a : Vec Ideal S1x1 .f32) :
    k0_pay9 x0 x1 a = fun i => a i + s3 x0 x1 := by
  funext i
  unfold k0_pay9
  show a i + _ = a i + _
  refine congrArg (a i + ·) ?_
  refine (colSum_apply _ _ _ _ _ i).trans ?_
  unfold s3
  refine Finset.sum_congr rfl fun ch _ => ?_
  refine (rowLaneSum_apply _ _ _ _ _ _ ch 0).trans ?_
  refine Finset.sum_congr rfl fun r _ => Finset.sum_congr rfl fun w _ => ?_
  show shapeCast S8x256x512 x1 shapeCasts_S1x8x256x512_S8x256x512 (ix3 ch r w)
        * (max (Ideal.log (k0_pay8 x0 (ix3 ch r w))) cNeg100
            - max (Ideal.log1p (Ideal.ofBits .f32 0x00000000#32 - k0_pay8 x0 (ix3 ch r w))) cNeg100)
      + max (Ideal.log1p (Ideal.ofBits .f32 0x00000000#32 - k0_pay8 x0 (ix3 ch r w))) cNeg100 = _
  rw [pay8_apply, shapeCast_1abc_abc_apply, Ideal.ofBits_zero_f32, zero_sub]
  rfl

end Cert.KernelIdeal.KValue

end
-- ==== Proof.Invariant.lean ====
/-
  What the kernel's carried accumulators and, at a core's last point, its two output blocks hold after each grid
  point: the state `Cert.Bridge.acc` over the blocks of the two argument arrays — by induction on the point, each
  point's case read off the values its stores leave (the case lemmas) and the body's arithmetic (the payload lemmas).
-/
import proofs.«142088_j50259707298726_2_alg».proof.Proof.Pieces
import proofs.«142088_j50259707298726_2_alg».proof.Proof.Blocks
import proofs.«142088_j50259707298726_2_alg».proof.Proof.Payload

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Bridge

variable (m : (ℓ : Loc nD τ sig) → Buf (Elt Ideal) ℓ)

/-- The accumulators after point `n` on core `c`'s device, over the argument arrays as the region finds them. -/
def accAt (c : Dev nD) (n : ℕ) : Acc := acc (blkOf (V m c main_arg0)) (blkOf (V m c main_arg1)) n

/-- The five carried buffers hold the state `a`: the two scalars on their one element, the three per-pair vectors
    row by row. -/
def Holds (o : Vec Ideal S1x1x128 .f32 × Vec Ideal S1x1x128 .f32 × Vec Ideal S1x1 .f32 × Vec Ideal S1x1 .f32 × Vec Ideal S7x1 .f32 × Vec Ideal S7x1 .f32 × Vec Ideal S7x1 .f32)
    (a : Acc) : Prop :=
  o.2.2.1 = (fun _ => a.bce) ∧ o.2.2.2.1 = (fun _ => a.sim) ∧ o.2.2.2.2.1 = (fun y => a.dot (y 0))
    ∧ o.2.2.2.2.2.1 = (fun y => a.na (y 0)) ∧ o.2.2.2.2.2.2 = (fun y => a.nb (y 0))

/-- A core's first point (case A): every accumulator restarts, whatever was held before. -/
theorem stepA (c : Dev nD) (t : Fin cfg0.N) (h0 : t.val % 16 = 0) (h1 : t.val % 2 = 0) (h2 : ¬t.val % 2 = 1) (h3 : ¬t.val % 16 = 15)
    (a : Acc) :
    Holds (outsAt0 m c t.val t.isLt) (stepAcc t.val (blkOf (V m c main_arg0) t.val) (blkOf (V m c main_arg1) t.val) a) := by
  rw [outsAt0_A m c t h0 h1 h2 h3, iblk0_eq m c t, iblk1_eq m c t, soutA0, soutA1, soutA2, soutA3, soutA4, pay10_eq, pay9_eq, pay13_eq, pay14_eq, pay15_eq, pay3_eq, pay4_eq, pay5_eq, pay6_eq, pay7_eq]
  unfold Holds
  refine ⟨?_, ?_, ?_, ?_, ?_⟩ <;> funext y <;> simp only [stepAcc, if_pos h0, if_pos h1, if_neg h2] <;> rfl

/-- A batch's second half that is not the core's last point (case B), from the state `a` held before it. -/
theorem stepB (c : Dev nD) (t : Fin cfg0.N) (h0 : ¬t.val % 16 = 0) (h1 : ¬t.val % 2 = 0) (h2 : t.val % 2 = 1) (h3 : ¬t.val % 16 = 15)
    (a : Acc) (hp : Holds (outsAt0 m c (t.val - 1) (Nat.lt_of_le_of_lt (Nat.sub_le _ _) t.isLt)) a) :
    Holds (outsAt0 m c t.val t.isLt) (stepAcc t.val (blkOf (V m c main_arg0) t.val) (blkOf (V m c main_arg1) t.val) a) := by
  obtain ⟨e0, e1, e2, e3, e4⟩ := hp
  rw [outsAt0_B m c t h0 h1 h2 h3, e0, e1, e2, e3, e4, iblk0_eq m c t, iblk1_eq m c t, soutB0, soutB1, soutB2, soutB3, soutB4, pay10_eq, pay9_eq, pay16_eq, pay13_eq, pay14_eq, pay15_eq]
  unfold Holds
  refine ⟨?_, ?_, ?_, ?_, ?_⟩ <;> funext y <;> simp only [stepAcc, if_neg h0, if_neg h1, if_pos h2] <;> rfl

/-- A later batch's first half (case C): the per-batch accumulators restart, the core's continue from `a`. -/
theorem stepC (c : Dev nD) (t : Fin cfg0.N) (h0 : ¬t.val % 16 = 0) (h1 : t.val % 2 = 0) (h2 : ¬t.val % 2 = 1) (h3 : ¬t.val % 16 = 15)
    (a : Acc) (hp : Holds (outsAt0 m c (t.val - 1) (Nat.lt_of_le_of_lt (Nat.sub_le _ _) t.isLt)) a) :
    Holds (outsAt0 m c t.val t.isLt) (stepAcc t.val (blkOf (V m c main_arg0) t.val) (blkOf (V m c main_arg1) t.val) a) := by
  obtain ⟨e0, e1, e2, e3, e4⟩ := hp
  rw [outsAt0_C m c t h0 h1 h2 h3, e0, e1, iblk0_eq m c t, iblk1_eq m c t, soutC0, soutC1, soutC2, soutC3, soutC4, pay10_eq, pay9_eq, pay13_eq, pay14_eq, pay15_eq, pay5_eq, pay6_eq, pay7_eq]
  unfold Holds
  refine ⟨?_, ?_, ?_, ?_, ?_⟩ <;> funext y <;> simp only [stepAcc, if_neg h0, if_pos h1, if_neg h2] <;> rfl

/-- A core's last point (case D): as case B, and the two output blocks take the core's two sums on every lane. -/
theorem stepD (c : Dev nD) (t : Fin cfg0.N) (h0 : ¬t.val % 16 = 0) (h1 : ¬t.val % 2 = 0) (h2 : t.val % 2 = 1) (h3 : t.val % 16 = 15)
    (a : Acc) (hp : Holds (outsAt0 m c (t.val - 1) (Nat.lt_of_le_of_lt (Nat.sub_le _ _) t.isLt)) a) :
    Holds (outsAt0 m c t.val t.isLt) (stepAcc t.val (blkOf (V m c main_arg0) t.val) (blkOf (V m c main_arg1) t.val) a)
    ∧ (outsAt0 m c t.val t.isLt).1 = (fun _ => (stepAcc t.val (blkOf (V m c main_arg0) t.val) (blkOf (V m c main_arg1) t.val) a).bce)
    ∧ (outsAt0 m c t.val t.isLt).2.1 = (fun _ => (stepAcc t.val (blkOf (V m c main_arg0) t.val) (blkOf (V m c main_arg1) t.val) a).sim) := by
  obtain ⟨e0, e1, e2, e3, e4⟩ := hp
  rw [outsAt0_D m c t h0 h1 h2 h3, e0, e1, e2, e3, e4, iblk0_eq m c t, iblk1_eq m c t, outD2, outD3, soutD0, soutD1, soutD2, soutD3, soutD4, pay1_eq, pay2_eq, pay10_eq, pay9_eq, pay16_eq, pay13_eq, pay14_eq, pay15_eq]
  unfold Holds
  refine ⟨⟨?_, ?_, ?_, ?_, ?_⟩, ?_, ?_⟩ <;> funext y <;> simp only [stepAcc, if_neg h0, if_neg h1, if_pos h2] <;> rfl

/-- After every grid point the carried buffers hold the accumulator state of that point: by induction on the point. -/
theorem holds_at (c : Dev nD) : ∀ (n : ℕ) (hn : n < cfg0.N), Holds (outsAt0 m c n hn) (accAt m c n)
  | 0, hn => stepA m c ⟨0, hn⟩ rfl rfl (show ¬(0 : ℕ) % 2 = 1 by decide) (show ¬(0 : ℕ) % 16 = 15 by decide) _
  | n + 1, hn => by
    have ih := holds_at c n (Nat.lt_of_succ_lt hn)
    show Holds _ (stepAcc (n + 1) (blkOf (V m c main_arg0) (n + 1)) (blkOf (V m c main_arg1) (n + 1)) (accAt m c n))
    by_cases h0 : (n + 1) % 16 = 0
    · have k1 : (n + 1) % 2 = 0 := by omega
      have k2 : ¬(n + 1) % 2 = 1 := by omega
      have k3 : ¬(n + 1) % 16 = 15 := by omega
      exact stepA m c ⟨n + 1, hn⟩ h0 k1 k2 k3 _
    · by_cases h1 : (n + 1) % 2 = 0
      · have k2 : ¬(n + 1) % 2 = 1 := by omega
        have k3 : ¬(n + 1) % 16 = 15 := by omega
        exact stepC m c ⟨n + 1, hn⟩ h0 h1 k2 k3 _ ih
      · have k2 : (n + 1) % 2 = 1 := by omega
        by_cases h3 : (n + 1) % 16 = 15
        · exact (stepD m c ⟨n + 1, hn⟩ h0 h1 k2 h3 _ ih).1
        · exact stepB m c ⟨n + 1, hn⟩ h0 h1 k2 h3 _ ih

/-- At a core's last point (n % 16 = 15) the two output blocks are the core's two sums on every lane. -/
theorem outs_last (c : Dev nD) (t : Fin cfg0.N) (h : t.val % 16 = 15) :
    (outsAt0 m c t.val t.isLt).1 = (fun _ => (accAt m c t.val).bce)
    ∧ (outsAt0 m c t.val t.isLt).2.1 = (fun _ => (accAt m c t.val).sim) := by
  obtain ⟨n, hn⟩ := t
  cases n with
  | zero => exact absurd (show (0 : ℕ) % 16 = 15 from h) (by decide)
  | succ n =>
    have h' : (n + 1) % 16 = 15 := h
    have k0 : ¬(n + 1) % 16 = 0 := by omega
    have k1 : ¬(n + 1) % 2 = 0 := by omega
    have k2 : (n + 1) % 2 = 1 := by omega
    exact (stepD m c ⟨n + 1, hn⟩ k0 k1 k2 h' _ (holds_at m c n (Nat.lt_of_succ_lt hn))).2

end Cert.KernelIdeal.KValue

end
-- ==== Proof.KernelValue.lean ====
/-
  From the kernel's run to the value of its result.

  Each of the two output arrays has shape 2 × 1 × 128; row g is written once, at core g's last grid point 16·g + 15, with
  the core's running sum on every lane.  So after the run row g of the first array holds the cross-entropy sum of core g
  on every lane, and row g of the second its cosine sum.  The host then keeps lane 0 of each row, adds the two rows from
  zero, and applies the scalar tail.
-/
import proofs.«142088_j50259707298726_2_alg».proof.Proof.Invariant
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.Bridge

variable (m : (ℓ : Loc nD τ sig) → Buf (Elt Ideal) ℓ) (ρ : Dev nD → PrngReg)

/-! ## The two output arrays after the run -/

/-- Where the two output windows sit at a grid point: row (point / 16), the whole of the other two axes. -/
theorem idx_out2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx_out3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- Row g of the first output: core g's cross-entropy sum after its last point, on every lane. -/
def bceRows (c : Dev nD) : S2x1x128.Idx → Elt Ideal .f32 := fun i => (accAt m c (16 * (i 0).val + 15)).bce
/-- Row g of the second output: core g's cosine sum after its last point, on every lane. -/
def simRows (c : Dev nD) : S2x1x128.Idx → Elt Ideal .f32 := fun i => (accAt m c (16 * (i 0).val + 15)).sim

/-- A point that writes the first output back is a core's last point, and what it writes is its row of `bceRows`. -/
theorem flushed2_eq (c : Dev nD) (t : Fin cfg0.N) (hf : (cfg0.win 2).flush t = true) :
    (dats m 0 c).flushed 2 t = ((cfg0.win 2).blk t).view.read (Elt Ideal) (bceRows m c) := by
  have h15 : t.val % 16 = 15 := (flush0_2 t).mp hf
  show (cfg0.win 2).cut (grid0.coords t) ((dats m 0 c).after 2 t) = _
  rw [after0_2, (outs_last m c t h15).1]
  obtain ⟨e0, e1, e2⟩ := idx_out2 t
  funext y
  have hy : (((cfg0.win 2).blk t).view.emb y 0).val = t.val / 16 := by
    show win0_2.index t 0 * 1 + 1 * (y 0).val = _
    have hy0 : (y 0).val < 1 := (y 0).isLt
    rw [e0]; omega
  show (accAt m c t.val).bce = (accAt m c (16 * (((cfg0.win 2).blk t).view.emb y 0).val + 15)).bce
  rw [hy, show 16 * (t.val / 16) + 15 = t.val from by omega]

theorem flushed3_eq (c : Dev nD) (t : Fin cfg0.N) (hf : (cfg0.win 3).flush t = true) :
    (dats m 0 c).flushed 3 t = ((cfg0.win 3).blk t).view.read (Elt Ideal) (simRows m c) := by
  have h15 : t.val % 16 = 15 := (flush0_3 t).mp hf
  show (cfg0.win 3).cut (grid0.coords t) ((dats m 0 c).after 3 t) = _
  rw [after0_3, (outs_last m c t h15).2]
  obtain ⟨e0, e1, e2⟩ := idx_out3 t
  funext y
  have hy : (((cfg0.win 3).blk t).view.emb y 0).val = t.val / 16 := by
    show win0_3.index t 0 * 1 + 1 * (y 0).val = _
    have hy0 : (y 0).val < 1 := (y 0).isLt
    rw [e0]; omega
  show (accAt m c t.val).sim = (accAt m c (16 * (((cfg0.win 3).blk t).view.emb y 0).val + 15)).sim
  rw [hy, show 16 * (t.val / 16) + 15 = t.val from by omega]

/-- The last point of the core that owns row `g`. -/
def lastPt (g : ℕ) (hg : g < 2) : Fin cfg0.N := ⟨16 * g + 15, by rw [show cfg0.N = 32 from N_0]; omega⟩

/-- Every entry of the first output lies in the block of its row's core's last point, so the array ends at `bceRows`. -/
theorem final2 (c : Dev nD) : (dats m 0 c).arrAt 2 cfg0.N = bceRows m c :=
  (dats m 0 c).arrAt_eq_of_cover 2 (bceRows m c) (flushed2_eq m c) fun i => by
    have h0 : (i 0 : Nat) < 2 := (i 0).isLt
    have h1 : (i 1 : Nat) < 1 := (i 1).isLt
    have h2 : (i 2 : Nat) < 128 := (i 2).isLt
    refine ⟨lastPt (i 0).val h0, (flush0_2 _).mpr (by show (16 * (i 0).val + 15) % 16 = 15; omega), ?_⟩
    show i ∈ ((View.whole main_v0_0).slice (win0_2.rect (lastPt (i 0).val h0))).set
    rw [View.set_slice_whole, Rect.mem_set_unit]
    obtain ⟨e0, e1, e2⟩ := idx_out2 (lastPt (i 0).val h0)
    have e0' : win0_2.index (lastPt (i 0).val h0) 0 = (i 0).val := by rw [e0]; show (16 * (i 0).val + 15) / 16 = _; omega
    intro a
    match a with
    | ⟨0, _⟩ => show win0_2.index (lastPt (i 0).val h0) 0 * 1 ≤ (i 0 : Nat) ∧ (i 0 : Nat) < win0_2.index (lastPt (i 0).val h0) 0 * 1 + 1
                rw [e0']; omega
    | ⟨1, _⟩ => show win0_2.index (lastPt (i 0).val h0) 1 * 1 ≤ (i 1 : Nat) ∧ (i 1 : Nat) < win0_2.index (lastPt (i 0).val h0) 1 * 1 + 1
                rw [e1]; omega
    | ⟨2, _⟩ => show win0_2.index (lastPt (i 0).val h0) 2 * 128 ≤ (i 2 : Nat) ∧ (i 2 : Nat) < win0_2.index (lastPt (i 0).val h0) 2 * 128 + 128
                rw [e2]; omega

theorem final3 (c : Dev nD) : (dats m 0 c).arrAt 3 cfg0.N = simRows m c :=
  (dats m 0 c).arrAt_eq_of_cover 3 (simRows m c) (flushed3_eq m c) fun i => by
    have h0 : (i 0 : Nat) < 2 := (i 0).isLt
    have h1 : (i 1 : Nat) < 1 := (i 1).isLt
    have h2 : (i 2 : Nat) < 128 := (i 2).isLt
    refine ⟨lastPt (i 0).val h0, (flush0_3 _).mpr (by show (16 * (i 0).val + 15) % 16 = 15; omega), ?_⟩
    show i ∈ ((View.whole main_v0_1).slice (win0_3.rect (lastPt (i 0).val h0))).set
    rw [View.set_slice_whole, Rect.mem_set_unit]
    obtain ⟨e0, e1, e2⟩ := idx_out3 (lastPt (i 0).val h0)
    have e0' : win0_3.index (lastPt (i 0).val h0) 0 = (i 0).val := by rw [e0]; show (16 * (i 0).val + 15) / 16 = _; omega
    intro a
    match a with
    | ⟨0, _⟩ => show win0_3.index (lastPt (i 0).val h0) 0 * 1 ≤ (i 0 : Nat) ∧ (i 0 : Nat) < win0_3.index (lastPt (i 0).val h0) 0 * 1 + 1
                rw [e0']; omega
    | ⟨1, _⟩ => show win0_3.index (lastPt (i 0).val h0) 1 * 1 ≤ (i 1 : Nat) ∧ (i 1 : Nat) < win0_3.index (lastPt (i 0).val h0) 1 * 1 + 1
                rw [e1]; omega
    | ⟨2, _⟩ => show win0_3.index (lastPt (i 0).val h0) 2 * 128 ≤ (i 2 : Nat) ∧ (i 2 : Nat) < win0_3.index (lastPt (i 0).val h0) 2 * 128 + 128
                rw [e2]; omega

/-! ## The host tail -/

/-- What the host does with one output array: it keeps lane 0 of each of the two rows and adds the two from zero. -/
def rowSum (out : (⟨S2x1x128, .f32⟩ : BufTy).Contents (Elt Ideal)) : (⟨S_, .f32⟩ : BufTy).Contents (Elt Ideal) :=
  Host.reduceAdd (F := Ideal)
    (shapeCast S2 (extractStridedSlice S2x1x1 ![0, 0, 0] out slices_S2x1x128_S2x1x1_0_0_0) shapeCasts_S2x1x1_S2)
    (constant (F := Ideal) S_ .f32 0x00000000#32) reducesTo_S2_S_d0 h_S_

/-- A vector of length two is indexed by its one coordinate. -/
def rowEquiv : S2.Idx ≃ Fin 2 where
  toFun j := j 0
  invFun g := ValueIdx.ix1 g
  left_inv j := (ValueIdx.eq_ix1 j).symm
  right_inv _ := rfl

/-- Row `g` of the reshaped slice is entry (g, 0, 0) of the array. -/
theorem row_apply (out : (⟨S2x1x128, .f32⟩ : BufTy).Contents (Elt Ideal)) (g : Fin 2) :
    shapeCast S2 (extractStridedSlice S2x1x1 ![0, 0, 0] out slices_S2x1x128_S2x1x1_0_0_0) shapeCasts_S2x1x1_S2 (ValueIdx.ix1 g)
      = out (ValueIdx.ix3 g 0 0) := by
  refine (shapeCast_apply _ shapeCasts_S2x1x1_S2 (ValueIdx.ix1 g) (ValueIdx.ix3 g 0 0) ?_).trans ?_
  · rw [Shape.rowMajor_val_three, Shape.rowMajor_val_one]
    show (g.val * 1 + 0) * 1 + 0 = g.val
    omega
  · refine extractStridedSlice_apply _ out _ (ValueIdx.ix3 g 0 0) (ValueIdx.ix3 g 0 0) fun a => ?_
    match a with
    | ⟨0, _⟩ => show g.val = 0 + g.val; omega
    | ⟨1, _⟩ => show 0 = 0 + 0; rfl
    | ⟨2, _⟩ => show 0 = 0 + 0; rfl

/-- So the host's sum of an output array is zero plus its two rows' lane 0. -/
theorem rowSum_apply (out : (⟨S2x1x128, .f32⟩ : BufTy).Contents (Elt Ideal)) (j : S_.Idx) :
    rowSum out j = Ideal.ofBits .f32 0x00000000#32 + ∑ g : Fin 2, out (ValueIdx.ix3 g 0 0) := by
  unfold rowSum
  simp only [Host.reduceAdd, Ideal.hostReduceAdd_def]
  refine (Ideal.hostReduceAdd_total reducesTo_S2_S_d0 (fun b => b.elim0) _ _ j).trans ?_
  refine congrArg (Ideal.ofBits .f32 0x00000000#32 + ·) ?_
  refine (Fintype.sum_equiv rowEquiv _ (fun g => out (ValueIdx.ix3 g 0 0)) fun i => ?_)
  rw [ValueIdx.eq_ix1 i]
  exact row_apply out (i 0)

open Idealize.ShloMosaic.StableHlo in
/-- The twenty-five host operations after the kernel, composed: the scalar tail of the two arrays' host sums. -/
theorem tail_after (W : Valuation τ sig (Elt Ideal)) :
    StableHlo.after hostOps1 W (Proc.devRef .tc main_v17)
      = Cert.Bridge.tail (rowSum (W (Proc.devRef .tc main_v0_0))) (rowSum (W (Proc.devRef .tc main_v0_1))) := by
  after_results
  rfl

/-- The result buffer after the run: the tail of the kernel's two sums. -/
theorem tail_eq (c : Dev nD) :
    Pipeline.afterTail₀ cfgs (dats m) 0 (V0 m) [hostOps1] c main_v17
      = Cert.Bridge.tail (fun _ => bceK (V m c main_arg0) (V m c main_arg1)) (fun _ => simK (V m c main_arg0) (V m c main_arg1)) := by
  unfold Pipeline.afterTail₀
  show StableHlo.after hostOps1 _ (Proc.devRef .tc main_v17) = _
  refine (tail_after _).trans ?_
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have h2 : rowSum (bceRows m c) = fun _ => bceK (V m c main_arg0) (V m c main_arg1) := funext fun j => by
    rw [rowSum_apply]; rfl
  have h3 : rowSum (simRows m c) = fun _ => simK (V m c main_arg0) (V m c main_arg1) := funext fun j => by
    rw [rowSum_apply]; rfl
  exact (congrArg₂ Cert.Bridge.tail (congrArg rowSum e2) (congrArg rowSum e3)).trans (by rw [h2, h3])

/-! ## The kernel's run, read -/

/-- On every core's device the run ends with the result buffer at the tail of the two sums `bceK`, `simK` of the argument
    arrays as launched, and the two argument arrays unchanged. -/
theorem kernel_run : θ_run (defs (F := Ideal)) (onTc (τ := τ) (main (F := Ideal))) ⟨m, fun _ => 0, ρ⟩ (fun r => ∀ c : Dev nD,
      r.2.mem ((c.tc : Thread nD τ).loc main_v17)
        = Cert.Bridge.tail (fun _ => bceK (m ((c.tc : Thread nD τ).loc main_arg0)) (m ((c.tc : Thread nD τ).loc main_arg1)))
            (fun _ => simK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v17 (Pipeline.mem_restRefs_of main_v17 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference program's result as the mathematics of the specification: its last stages are the host tail applied to
  the cross-entropy sum and the cosine sum, and each of those two sums, read element by element, is the specification's.
-/
import proofs.«142088_j50259707298726_2_alg».proof.Proof.Spec

noncomputable section

namespace Cert.ReferenceIdeal.RefValue

open Cert.ReferenceIdeal Cert.ReferenceIdeal.Read Idealize.ShloMosaic Cert.Bridge

/-- The cross-entropy stage: the flattened sum of the reference's per-element terms. -/
theorem v14_eq (x0 x1 : (⟨S16x8x512x512, .f32⟩ : BufTy).Contents (Elt Ideal)) :
    val_main_v14 (F := Ideal) x0 x1 = fun _ => bceR x0 x1 := by
  funext i
  rw [val_main_v14_apply, val_main_cst_2_apply]
  unfold bceR
  refine congrArg (_ + ·) (Finset.sum_congr rfl fun j _ => ?_)
  rw [val_main_v13_apply, val_main_v9_apply, val_main_v12_apply, val_main_v11_apply, val_main_v10_apply,
    val_main_v1_apply, val_main_v4_apply, val_main_v8_apply, val_main_v2_apply, val_main_v3_apply,
    val_main_v6_apply, val_main_v7_apply, val_main_v5_apply, val_main_v0_apply, val_main_cst_apply,
    val_main_cst_0_apply, val_main_cst_1_apply]
  simp only [Ideal.addf_def, Ideal.mulf_def, Ideal.subf_def, Ideal.maximumf_def, Ideal.hostUnary_log_def,
    Ideal.hostUnary_log1p_def, Ideal.hostNegf_def, Ideal.negf_def, Ideal.ofBits_def]
  unfold termR clog clog1m cNeg100 cOne
  rfl

/-- The cosine stage: over the 16 × 7 (batch, adjacent channel pair)s, the sum of the cosines, each from its three
    sums over the 262144 positions of a channel. -/
theorem v40_eq (x0 : (⟨S16x8x512x512, .f32⟩ : BufTy).Contents (Elt Ideal)) :
    val_main_v40 (F := Ideal) x0 = fun _ => simR x0 := by
  funext i
  rw [val_main_v40_apply, val_main_cst_12_apply]
  unfold simR
  refine congrArg (_ + ·) (Finset.sum_congr rfl fun j _ => ?_)
  rw [val_main_v39_apply, val_main_v27_apply, val_main_v38_apply, val_main_v35_apply, val_main_v37_apply,
    val_main_v30_apply, val_main_v33_apply, val_main_v29_apply, val_main_v32_apply, val_main_v34_apply,
    val_main_v36_apply, val_main_cst_7_apply, val_main_cst_8_apply, val_main_cst_9_apply, val_main_cst_10_apply,
    val_main_cst_11_apply]
  simp only [val_main_v26_apply, val_main_v28_apply, val_main_v31_apply, val_main_v24_apply, val_main_v25_apply,
    val_main_v23_apply]
  simp only [Ideal.mulf_def, Ideal.maximumf_def, Ideal.hostUnary_sqrt_def, Ideal.hostDivf_def, Ideal.ofBits_def]
  unfold cosOf cEps pairA pairB
  rfl

/-- The reference's last stages are the host tail of the two sums. -/
theorem v43_eq_tail (x0 x1 : (⟨S16x8x512x512, .f32⟩ : BufTy).Contents (Elt Ideal)) :
    val_main_v43 (F := Ideal) x0 x1 = tail (val_main_v14 (F := Ideal) x0 x1) (val_main_v40 (F := Ideal) x0) := rfl

/-- The reference's result: the host tail of the specification's cross-entropy sum and cosine sum. -/
theorem ref_value (x0 x1 : (⟨S16x8x512x512, .f32⟩ : BufTy).Contents (Elt Ideal)) :
    val_main_v43 (F := Ideal) x0 x1 = tail (fun _ => bceR x0 x1) (fun _ => simR x0) := by
  rw [v43_eq_tail, v14_eq, v40_eq]

end Cert.ReferenceIdeal.RefValue

end
-- ==== Proof.Finite.lean ====
/-
  The precondition read back: both input arrays hold only real numbers (no infinity).
  The printed predicate is  all (|x0| < +∞) ∧ all (|x1| < +∞);  each `all` that is 1 gives its comparison at every
  index, and an extended real whose absolute value is below +∞ is neither +∞ nor −∞.
-/
import proofs.«142088_j50259707298726_2_alg».proof.Pre_finite_inputs
import Idealize.ShloMosaic.Lib.ReduceAll
import Idealize.ShloMosaic.PureOps.Ideal

noncomputable section

namespace Cert.Pre_finite_inputs.Finite

open Idealize.ShloMosaic Cert.Pre_finite_inputs

/-- The scalar shape has one index. -/
instance : Subsingleton S_.Idx := ⟨fun a b => funext fun d => d.elim0⟩

/-- An extended real whose absolute value compares below the pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  obtain ⟨h1, h2⟩ := max_lt_iff.1 hlt
  have hx1 : x ≠ ⊤ := ne_of_lt h1
  have hx2 : x ≠ ⊥ := by
    intro hb
    rw [hb] at h2
    exact absurd h2 (by simp)
  exact ⟨x.toReal, (EReal.coe_toReal hx1 hx2).symm⟩

/-- Under the precondition every element of both inputs is a real number. -/
theorem finite_of_pre [Facts] (x0 x1 : (⟨S16x8x512x512, .f32⟩ : BufTy).Contents (Elt Ideal))
    (h : fn (F := Ideal) x0 x1 = fun _ => 1#1) :
    (∀ i, ∃ r : ℝ, x0 i = (r : EReal)) ∧ (∀ i, ∃ r : ℝ, x1 i = (r : EReal)) := by
  have h0 := congrFun h (fun a => a.elim0)
  dsimp only [fn] at h0
  obtain ⟨ha, hb⟩ := IntOp.andi_eq_one.1 h0
  exact ⟨fun i => real_of_abs_lt_inf (x0 i) (Host.reduce_andi_all _ _ _ _ _ ha i),
    fun i => real_of_abs_lt_inf (x1 i) (Host.reduce_andi_all _ _ _ _ _ hb i)⟩

end Cert.Pre_finite_inputs.Finite

end
-- ==== Proof.AlgebraIdx.lean ====
/-
  Sums over index sets, re-arranged: the lemmas the two equalities between the kernel's and the reference's sums rest on.
  A sum over Fin (m · n) is the double sum over Fin m and Fin n (position n · a + b); a sum over a rank-4
  index set is the quadruple sum over its coordinates; a sum over a rank-1 index set is the sum over its coordinate.
-/
import proofs.«142088_j50259707298726_2_alg».proof.Proof.Spec
import Idealize.ShloMosaic.Lib.IdealHost

noncomputable section

namespace Cert.Bridge

open Idealize.ShloMosaic Idealize.ShloMosaic.ValueIdx

/-- A sum over Fin N, N = m · n, is the double sum over the quotient and the remainder by n. -/
theorem sum_fin_mul {M : Type*} [AddCommMonoid M] {m n N : ℕ} (hN : N = m * n) (g : Fin m → Fin n → Fin N)
    (hg : ∀ a b, (g a b).val = n * a.val + b.val) (f : Fin N → M) :
    ∑ k, f k = ∑ a, ∑ b, f (g a b) := by
  subst hN
  have hge : ∀ a b, g a b = finProdFinEquiv (a, b) := by
    intro a b
    apply Fin.ext
    rw [hg]
    simp only [finProdFinEquiv_apply_val]
    omega
  simp only [hge]
  rw [← Fintype.sum_prod_type', Equiv.sum_comp finProdFinEquiv f]

/-- A sum over a rank-4 index set is the quadruple sum over the coordinates. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3)
      invFun := fun p => ix4 p.1 p.2.1 p.2.2.1 p.2.2.2
      left_inv := fun i => (eq_ix4 i).symm
      right_inv := fun _ => rfl }
  rw [← Equiv.sum_comp e.symm f]
  simp only [Fintype.sum_prod_type]
  rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0
      invFun := fun a => ix1 a
      left_inv := fun i => (eq_ix1 i).symm
      right_inv := fun _ => rfl }
  rw [← Equiv.sum_comp e.symm f]
  rfl

/-- Two rank-4 indices with the same coordinate values are equal. -/
theorem ix4_congr {n0 n1 n2 n3 : ℕ} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

/-! ## One grid point's block, by coordinates; one step of the accumulators -/

/-- Where element (0, ch, r, w) of point n's block sits in the array. -/
theorem blkIdx_ix4 (n : ℕ) (ch : Fin 8) (r : Fin 256) (w : Fin 512) :
    blkIdx n (ix4 (0 : Fin 1) ch r w)
      = ix4 (⟨(n / 2) % 16, Nat.mod_lt _ (by norm_num)⟩ : Fin 16) ch
          (⟨(n % 2) * 256 + r.val, by have h := r.isLt; have h2 : n % 2 < 2 := Nat.mod_lt _ (by norm_num); omega⟩ : Fin 512) w := rfl

/-- The state a point starts from: the initial one before point 0, the point before's after that. -/
def accPrev (b0 b1 : ℕ → SBlk.Idx → EReal) : ℕ → Acc
  | 0 => ⟨0, 0, fun _ => 0, fun _ => 0, fun _ => 0⟩
  | n + 1 => acc b0 b1 n

theorem acc_eq_step (b0 b1 : ℕ → SBlk.Idx → EReal) (n : ℕ) :
    acc b0 b1 n = stepAcc n (b0 n) (b1 n) (accPrev b0 b1 n) := by
  cases n <;> rfl

end Cert.Bridge

end
-- ==== Proof.AlgebraBce.lean ====
/-
  The cross-entropy sum: the kernel's accumulation over its 32 grid points is the reference's one sum over the
  flattened array. Pointwise, on real inputs, t·(a − b) + b = t·a + (1 − t)·b with a, b the clamped logarithms
  (reals, since the clamp is a real); then both sides are the sum of one function over all 16 × 8 × 512 × 512
  elements, the kernel's by (core, batch in core, half, channel, row in half, lane), the reference's by flat position.
-/
import proofs.«142088_j50259707298726_2_alg».proof.Proof.AlgebraIdx

noncomputable section

namespace Cert.Bridge

open Idealize.ShloMosaic Idealize.ShloMosaic.ValueIdx

/-- The clamp is a real number. -/
theorem cNeg100_real : ∃ c : ℝ, cNeg100 = (c : EReal) := by
  refine ⟨-100, ?_⟩
  unfold cNeg100
  simp [Ideal.ofBits, Ideal.ieee, -EReal.coe_mul, -EReal.coe_neg]
  norm_num

theorem cOne_eq : cOne = ((1 : ℝ) : EReal) := by
  unfold cOne
  rw [Ideal.ofBits_one_f32]
  rfl

/-- The clamped logarithm of a real is a real: the logarithm is a real or −∞, and the clamp is a real. -/
theorem clampLog_real (r : ℝ) : ∃ a : ℝ, max (Ideal.log (r : EReal)) cNeg100 = (a : EReal) := by
  obtain ⟨c, hc⟩ := cNeg100_real
  rw [hc, Ideal.log_coe]
  split_ifs
  · exact ⟨c, max_eq_right bot_le⟩
  · exact ⟨max (Real.log r) c, (EReal.coe_strictMono.monotone.map_max).symm⟩

theorem clog_real (r : ℝ) : ∃ a : ℝ, clog (r : EReal) = (a : EReal) := clampLog_real r

theorem clog1m_real (r : ℝ) : ∃ a : ℝ, clog1m (r : EReal) = (a : EReal) := by
  unfold clog1m Ideal.log1p
  have h : (1 : EReal) + -(r : EReal) = ((1 + -r : ℝ) : EReal) := by
    rw [EReal.coe_add, EReal.coe_neg, EReal.coe_one]
  rw [h]
  exact clampLog_real _

/-- On reals the kernel's spelling of one element's term is the reference's. -/
theorem termK_eq_termR_real (p t : ℝ) : termK (p : EReal) (t : EReal) = termR (p : EReal) (t : EReal) := by
  obtain ⟨a, ha⟩ := clog_real p
  obtain ⟨b, hb⟩ := clog1m_real p
  unfold termK termR
  rw [ha, hb, cOne_eq]
  norm_cast
  ring

/-! ## The accumulated cross-entropy sum in closed form -/

theorem acc_bce_step (b0 b1 : ℕ → SBlk.Idx → EReal) (n : ℕ) :
    (acc b0 b1 n).bce = (if n % 16 = 0 then 0 else (accPrev b0 b1 n).bce) + s3 (b0 n) (b1 n) :=
  congrArg Acc.bce (acc_eq_step b0 b1 n)

/-- After point n the core's sum holds the blocks of the core's points up to n. -/
theorem acc_bce (b0 b1 : ℕ → SBlk.Idx → EReal) (n : ℕ) :
    (acc b0 b1 n).bce
      = ∑ m ∈ Finset.range (n % 16 + 1), s3 (b0 (n / 16 * 16 + m)) (b1 (n / 16 * 16 + m)) := by
  induction n with
  | zero => simp [acc_bce_step]
  | succ n ih =>
    rw [acc_bce_step]
    by_cases h : (n + 1) % 16 = 0
    · have h2 : (n + 1) / 16 * 16 = n + 1 := by omega
      rw [if_pos h, zero_add, h, zero_add, Finset.sum_range_one, add_zero, h2]
    · have h1 : (n + 1) % 16 = n % 16 + 1 := by omega
      have h2 : (n + 1) / 16 * 16 = n / 16 * 16 := by omega
      have h3 : n / 16 * 16 + (n % 16 + 1) = n + 1 := by omega
      rw [if_neg h]
      show (acc b0 b1 n).bce + _ = _
      rw [ih, h1, h2, Finset.sum_range_succ _ (n % 16 + 1), h3]

/-- After a core's last point its sum holds the core's 16 blocks. -/
theorem acc_bce_core (b0 b1 : ℕ → SBlk.Idx → EReal) (g : ℕ) :
    (acc b0 b1 (16 * g + 15)).bce = ∑ m : Fin 16, s3 (b0 (16 * g + m.val)) (b1 (16 * g + m.val)) := by
  have h1 : (16 * g + 15) % 16 + 1 = 16 := by omega
  have h2 : (16 * g + 15) / 16 * 16 = 16 * g := by omega
  rw [acc_bce, h1, h2, Finset.sum_range]

/-! ## The two arrangements of the sum over all elements -/

/-- The blocks of the 32 grid points tile the array. -/
theorem sum_blocks (f : SArr.Idx → EReal) :
    ∑ g : Fin 2, ∑ m : Fin 16, ∑ ch : Fin 8, ∑ r : Fin 256, ∑ w : Fin 512,
        f (blkIdx (16 * g.val + m.val) (ix4 (0 : Fin 1) ch r w))
      = ∑ i : SArr.Idx, f i := by
  rw [sum_idx4 f]
  refine Eq.symm ((sum_fin_mul (by norm_num : 16 = 2 * 8) (fun g b => ⟨8 * g.val + b.val, by omega⟩)
    (fun _ _ => rfl) _).trans ?_)
  refine Finset.sum_congr rfl fun g _ => ?_
  refine Eq.symm ((sum_fin_mul (by norm_num : 16 = 8 * 2) (fun b h => ⟨2 * b.val + h.val, by omega⟩)
    (fun _ _ => rfl) _).trans ?_)
  refine Finset.sum_congr rfl fun b _ => ?_
  rw [Finset.sum_comm]
  refine Finset.sum_congr rfl fun ch _ => ?_
  refine Eq.symm ((sum_fin_mul (by norm_num : 512 = 2 * 256) (fun h r => ⟨256 * h.val + r.val, by omega⟩)
    (fun _ _ => rfl) _).trans ?_)
  refine Finset.sum_congr rfl fun h _ => Finset.sum_congr rfl fun r _ => Finset.sum_congr rfl fun w _ => ?_
  rw [blkIdx_ix4]
  have hg := g.isLt
  have hb := b.isLt
  have hh := h.isLt
  exact congrArg f (ix4_congr (by simp only [Fin.val_mk]; omega) rfl (by simp only [Fin.val_mk]; omega) rfl)

/-- Flat position 2097152·a + 262144·b + 512·c + d of the flattened array is element (a, b, c, d). -/
theorem idx_main_v0_flat (a : Fin 16) (b : Fin 8) (c d : Fin 512) (k : Fin 33554432)
    (hk : k.val = 2097152 * a.val + (262144 * b.val + (512 * c.val + d.val))) :
    Cert.ReferenceIdeal.Read.idx_main_v0 (ix1 k) = ix4 a b c d := by
  have ha := a.isLt
  have hb := b.isLt
  have hc := c.isLt
  have hd := d.isLt
  funext e
  match e with
  | ⟨0, _⟩ => exact Fin.ext (by show k.val / 2097152 = a.val; omega)
  | ⟨1, _⟩ => exact Fin.ext (by show k.val / 262144 % 8 = b.val; omega)
  | ⟨2, _⟩ => exact Fin.ext (by show k.val / 512 % 512 = c.val; omega)
  | ⟨3, _⟩ => exact Fin.ext (by show k.val % 512 = d.val; omega)

/-- The flat positions run over the array's elements once each. -/
theorem sum_flat (f : SArr.Idx → EReal) :
    ∑ j : Cert.ReferenceIdeal.S33554432.Idx, f (Cert.ReferenceIdeal.Read.idx_main_v0 j) = ∑ i : SArr.Idx, f i := by
  rw [sum_idx1, sum_idx4 f]
  refine (sum_fin_mul (by norm_num : 33554432 = 16 * 2097152)
    (fun (a : Fin 16) (k : Fin 2097152) => ⟨2097152 * a.val + k.val, by omega⟩) (fun _ _ => rfl) _).trans ?_
  refine Finset.sum_congr rfl fun a _ => ?_
  refine (sum_fin_mul (by norm_num : 2097152 = 8 * 262144)
    (fun (b : Fin 8) (k : Fin 262144) => ⟨262144 * b.val + k.val, by omega⟩) (fun _ _ => rfl) _).trans ?_
  refine Finset.sum_congr rfl fun b _ => ?_
  refine (sum_fin_mul (by norm_num : 262144 = 512 * 512)
    (fun (c : Fin 512) (d : Fin 512) => ⟨512 * c.val + d.val, by omega⟩) (fun _ _ => rfl) _).trans ?_
  refine Finset.sum_congr rfl fun c _ => Finset.sum_congr rfl fun d _ => ?_
  exact congrArg f (idx_main_v0_flat a b c d _ rfl)

/-! ## The two cross-entropy sums agree -/

theorem bceK_eq_bceR (A0 A1 : SArr.Idx → EReal) (h0 : ∀ i, ∃ r : ℝ, A0 i = (r : EReal))
    (h1 : ∀ i, ∃ r : ℝ, A1 i = (r : EReal)) : bceK A0 A1 = bceR A0 A1 := by
  have hf : ∀ i, termK (A0 i) (A1 i) = termR (A0 i) (A1 i) := by
    intro i
    obtain ⟨p, hp⟩ := h0 i
    obtain ⟨t, ht⟩ := h1 i
    rw [hp, ht]
    exact termK_eq_termR_real p t
  unfold bceK bceR
  refine congrArg (_ + ·) ?_
  rw [sum_flat (fun i => termR (A0 i) (A1 i)), ← sum_blocks (fun i => termR (A0 i) (A1 i))]
  refine Finset.sum_congr rfl fun g _ => ?_
  rw [acc_bce_core]
  refine Finset.sum_congr rfl fun m _ => ?_
  unfold s3 blkOf
  refine Finset.sum_congr rfl fun ch _ => Finset.sum_congr rfl fun r _ => Finset.sum_congr rfl fun w _ => ?_
  exact hf _

end Cert.Bridge

end
-- ==== Proof.AlgebraSim.lean ====
/-
  The cosine sum: the kernel's accumulation is the reference's sum over the 16 × 7 (batch, channel pair)s.
  A batch's two grid points (its two halves of the rows) together hold the batch's rows once each, so the sum of
  their contributions to a dot product or a squared norm is the reference's sum over the 512 · 512 positions of
  the pair of channels; the cosines are then the same function of the same three sums, and the sum over the
  batches (core by core on the kernel, all at once on the reference) is a re-arrangement.
-/
import proofs.«142088_j50259707298726_2_alg».proof.Proof.AlgebraIdx

noncomputable section

namespace Cert.Bridge

open Idealize.ShloMosaic Idealize.ShloMosaic.ValueIdx

/-! ## The accumulated cosine sum in closed form -/

/-- The seven cosines of the batch whose first half is point n, from the two halves' contributions. -/
def pairCos (b0 : ℕ → SBlk.Idx → EReal) (n : ℕ) : EReal :=
  cosRow (fun j => dot3 (b0 n) j + dot3 (b0 (n + 1)) j) (fun j => na3 (b0 n) j + na3 (b0 (n + 1)) j)
    (fun j => nb3 (b0 n) j + nb3 (b0 (n + 1)) j)

theorem acc_dot_even (b0 b1 : ℕ → SBlk.Idx → EReal) (n : ℕ) (h : n % 2 = 0) (j : Fin 7) :
    (acc b0 b1 n).dot j = dot3 (b0 n) j := by
  rw [acc_eq_step]
  show (if n % 2 = 0 then 0 else (accPrev b0 b1 n).dot j) + dot3 (b0 n) j = _
  rw [if_pos h, zero_add]

theorem acc_na_even (b0 b1 : ℕ → SBlk.Idx → EReal) (n : ℕ) (h : n % 2 = 0) (j : Fin 7) :
    (acc b0 b1 n).na j = na3 (b0 n) j := by
  rw [acc_eq_step]
  show (if n % 2 = 0 then 0 else (accPrev b0 b1 n).na j) + na3 (b0 n) j = _
  rw [if_pos h, zero_add]

theorem acc_nb_even (b0 b1 : ℕ → SBlk.Idx → EReal) (n : ℕ) (h : n % 2 = 0) (j : Fin 7) :
    (acc b0 b1 n).nb j = nb3 (b0 n) j := by
  rw [acc_eq_step]
  show (if n % 2 = 0 then 0 else (accPrev b0 b1 n).nb j) + nb3 (b0 n) j = _
  rw [if_pos h, zero_add]

/-- A first half leaves the core's cosine sum as it was (zero at a core's first point). -/
theorem acc_sim_even (b0 b1 : ℕ → SBlk.Idx → EReal) (n : ℕ) (h : n % 2 = 0) :
    (acc b0 b1 n).sim = if n % 16 = 0 then 0 else (accPrev b0 b1 n).sim := by
  rw [acc_eq_step]
  show (if n % 2 = 1 then _ else (if n % 16 = 0 then 0 else (accPrev b0 b1 n).sim)) = _
  rw [if_neg (by omega)]

/-- A second half adds the batch's seven cosines. -/
theorem acc_sim_odd (b0 b1 : ℕ → SBlk.Idx → EReal) (n : ℕ) (h : n % 2 = 0) :
    (acc b0 b1 (n + 1)).sim = (if (n + 1) % 16 = 0 then 0 else (acc b0 b1 n).sim) + pairCos b0 n := by
  have h1 : (n + 1) % 2 = 1 := by omega
  have h0 : ¬ (n + 1) % 2 = 0 := by omega
  rw [acc_succ]
  show (if (n + 1) % 2 = 1 then
      (if (n + 1) % 16 = 0 then 0 else (acc b0 b1 n).sim)
        + cosRow (fun j => (if (n + 1) % 2 = 0 then 0 else (acc b0 b1 n).dot j) + dot3 (b0 (n + 1)) j)
            (fun j => (if (n + 1) % 2 = 0 then 0 else (acc b0 b1 n).na j) + na3 (b0 (n + 1)) j)
            (fun j => (if (n + 1) % 2 = 0 then 0 else (acc b0 b1 n).nb j) + nb3 (b0 (n + 1)) j)
    else (if (n + 1) % 16 = 0 then 0 else (acc b0 b1 n).sim)) = _
  rw [if_pos h1]
  simp only [if_neg h0, acc_dot_even b0 b1 n h, acc_na_even b0 b1 n h, acc_nb_even b0 b1 n h]
  rfl

/-- After point n the core's cosine sum holds the cosines of the core's batches completed so far. -/
theorem acc_sim (b0 b1 : ℕ → SBlk.Idx → EReal) (n : ℕ) :
    (acc b0 b1 n).sim = ∑ k ∈ Finset.range ((n % 16 + 1) / 2), pairCos b0 (n / 16 * 16 + 2 * k) := by
  induction n with
  | zero => rw [acc_sim_even b0 b1 0 rfl]; simp
  | succ n ih =>
    by_cases hp : n % 2 = 0
    · rw [acc_sim_odd b0 b1 n hp, if_neg (by omega), ih]
      have h1 : ((n + 1) % 16 + 1) / 2 = (n % 16 + 1) / 2 + 1 := by omega
      have h2 : (n + 1) / 16 * 16 = n / 16 * 16 := by omega
      have h3 : n / 16 * 16 + 2 * ((n % 16 + 1) / 2) = n := by omega
      rw [h1, h2, Finset.sum_range_succ _ ((n % 16 + 1) / 2), h3]
    · rw [acc_sim_even b0 b1 (n + 1) (by omega)]
      by_cases h : (n + 1) % 16 = 0
      · rw [if_pos h, h]; simp
      · have h1 : ((n + 1) % 16 + 1) / 2 = (n % 16 + 1) / 2 := by omega
        have h2 : (n + 1) / 16 * 16 = n / 16 * 16 := by omega
        rw [if_neg h]
        show (acc b0 b1 n).sim = _
        rw [ih, h1, h2]

/-- After a core's last point its cosine sum holds the core's eight batches. -/
theorem acc_sim_core (b0 b1 : ℕ → SBlk.Idx → EReal) (g : ℕ) :
    (acc b0 b1 (16 * g + 15)).sim = ∑ k : Fin 8, pairCos b0 (16 * g + 2 * k.val) := by
  have h1 : ((16 * g + 15) % 16 + 1) / 2 = 8 := by omega
  have h2 : (16 * g + 15) / 16 * 16 = 16 * g := by omega
  rw [acc_sim, h1, h2, Finset.sum_range]

/-! ## A batch's two halves hold its rows once each -/

/-- The sum over a block's rows and lanes of the products of two of its channels. -/
def q3 (x0 : SBlk.Idx → EReal) (u v : Fin 8) : EReal :=
  ∑ r : Fin 256, ∑ w : Fin 512, x0 (ix4 0 u r w) * x0 (ix4 0 v r w)

/-- The same over all the rows of a batch of the array. -/
def qAll (A : SArr.Idx → EReal) (a : Fin 16) (u v : Fin 8) : EReal :=
  ∑ row : Fin 512, ∑ w : Fin 512, A (ix4 a u row w) * A (ix4 a v row w)

/-- Half h of batch a is point 2·a + h: its block's rows are the batch's rows 256·h + r. -/
theorem q3_half (A : SArr.Idx → EReal) (a : Fin 16) (h : Fin 2) (n : ℕ) (hn : n = 2 * a.val + h.val) (u v : Fin 8) :
    q3 (blkOf A n) u v
      = ∑ r : Fin 256, ∑ w : Fin 512,
          A (ix4 a u (⟨256 * h.val + r.val, by omega⟩ : Fin 512) w)
            * A (ix4 a v (⟨256 * h.val + r.val, by omega⟩ : Fin 512) w) := by
  have ha := a.isLt
  have hh := h.isLt
  unfold q3 blkOf
  refine Finset.sum_congr rfl fun r _ => Finset.sum_congr rfl fun w _ => ?_
  rw [blkIdx_ix4, blkIdx_ix4]
  have e : ∀ c : Fin 8,
      ix4 (⟨(n / 2) % 16, Nat.mod_lt _ (by norm_num)⟩ : Fin 16) c
          (⟨(n % 2) * 256 + r.val, by have h := r.isLt; have h2 : n % 2 < 2 := Nat.mod_lt _ (by norm_num); omega⟩ : Fin 512) w
        = ix4 a c (⟨256 * h.val + r.val, by omega⟩ : Fin 512) w :=
    fun c => ix4_congr (by simp only [Fin.val_mk]; omega) rfl (by simp only [Fin.val_mk]; omega) rfl
  rw [e u, e v]

/-- The two halves of a batch together. -/
theorem q3_halves (A : SArr.Idx → EReal) (a : Fin 16) (n : ℕ) (hn : n = 2 * a.val) (u v : Fin 8) :
    q3 (blkOf A n) u v + q3 (blkOf A (n + 1)) u v = qAll A a u v := by
  rw [q3_half A a 0 n (by rw [hn]; rfl) u v, q3_half A a 1 (n + 1) (by rw [hn]; rfl) u v, ← Fin.sum_univ_two
    (fun h : Fin 2 => ∑ r : Fin 256, ∑ w : Fin 512,
          A (ix4 a u (⟨256 * h.val + r.val, by omega⟩ : Fin 512) w)
            * A (ix4 a v (⟨256 * h.val + r.val, by omega⟩ : Fin 512) w))]
  exact (sum_fin_mul (by norm_num : 512 = 2 * 256)
    (fun (h : Fin 2) (r : Fin 256) => (⟨256 * h.val + r.val, by omega⟩ : Fin 512)) (fun _ _ => rfl)
    (fun row => ∑ w : Fin 512, A (ix4 a u row w) * A (ix4 a v row w))).symm

/-! ## The reference's rows of length 512 · 512 -/

/-- Position 512·c + d of (batch a, pair j)'s first row is element (a, j, c, d). -/
theorem pairA_flat (a : Fin 16) (j : Fin 7) (c d : Fin 512) (k : Fin 262144) (hk : k.val = 512 * c.val + d.val) :
    pairA (ix2 a j) k = ix4 a j.castSucc c d := by
  have ha := a.isLt
  have hj := j.isLt
  have hc := c.isLt
  have hd := d.isLt
  funext e
  match e with
  | ⟨0, _⟩ => exact Fin.ext (by show ((a.val * 8 + j.val) * 262144 + k.val) / 2097152 = a.val; omega)
  | ⟨1, _⟩ => exact Fin.ext (by show ((a.val * 8 + j.val) * 262144 + k.val) / 262144 % 8 = j.val; omega)
  | ⟨2, _⟩ => exact Fin.ext (by show ((a.val * 8 + j.val) * 262144 + k.val) / 512 % 512 = c.val; omega)
  | ⟨3, _⟩ => exact Fin.ext (by show ((a.val * 8 + j.val) * 262144 + k.val) % 512 = d.val; omega)

/-- Position 512·c + d of (batch a, pair j)'s second row is element (a, j + 1, c, d). -/
theorem pairB_flat (a : Fin 16) (j : Fin 7) (c d : Fin 512) (k : Fin 262144) (hk : k.val = 512 * c.val + d.val) :
    pairB (ix2 a j) k = ix4 a j.succ c d := by
  have ha := a.isLt
  have hj := j.isLt
  have hc := c.isLt
  have hd := d.isLt
  funext e
  match e with
  | ⟨0, _⟩ => exact Fin.ext (by show ((a.val * 8 + (1 + j.val)) * 262144 + k.val) / 2097152 = a.val; omega)
  | ⟨1, _⟩ => exact Fin.ext (by show ((a.val * 8 + (1 + j.val)) * 262144 + k.val) / 262144 % 8 = j.val + 1; omega)
  | ⟨2, _⟩ => exact Fin.ext (by show ((a.val * 8 + (1 + j.val)) * 262144 + k.val) / 512 % 512 = c.val; omega)
  | ⟨3, _⟩ => exact Fin.ext (by show ((a.val * 8 + (1 + j.val)) * 262144 + k.val) % 512 = d.val; omega)

/-- A reference sum over a row of length 512 · 512, from zero, is the sum over the batch's rows and lanes. -/
theorem sum_flat_pair (A : SArr.Idx → EReal) (a : Fin 16) (u v : Fin 8) (px py : Fin 262144 → SArr.Idx)
    (hx : ∀ (c d : Fin 512) (k : Fin 262144), k.val = 512 * c.val + d.val → px k = ix4 a u c d)
    (hy : ∀ (c d : Fin 512) (k : Fin 262144), k.val = 512 * c.val + d.val → py k = ix4 a v c d) :
    Ideal.ofBits .f32 0x00000000#32 + ∑ k : Fin 262144, A (px k) * A (py k) = qAll A a u v := by
  rw [Ideal.ofBits_zero_f32, zero_add]
  unfold qAll
  refine (sum_fin_mul (by norm_num : 262144 = 512 * 512)
    (fun (c d : Fin 512) => (⟨512 * c.val + d.val, by omega⟩ : Fin 262144)) (fun _ _ => rfl) _).trans ?_
  refine Finset.sum_congr rfl fun c _ => Finset.sum_congr rfl fun d _ => ?_
  rw [hx c d _ rfl, hy c d _ rfl]

/-- One (batch, pair)'s cosine: the reference's three sums are the kernel's, the two halves added. -/
theorem cos_pair (A : SArr.Idx → EReal) (a : Fin 16) (j : Fin 7) (n : ℕ) (hn : n = 2 * a.val) :
    cosOf (Ideal.ofBits .f32 0x00000000#32 + ∑ k : Fin 262144, A (pairA (ix2 a j) k) * A (pairB (ix2 a j) k))
        (Ideal.ofBits .f32 0x00000000#32 + ∑ k : Fin 262144, A (pairA (ix2 a j) k) * A (pairA (ix2 a j) k))
        (Ideal.ofBits .f32 0x00000000#32 + ∑ k : Fin 262144, A (pairB (ix2 a j) k) * A (pairB (ix2 a j) k))
      = cosOf (dot3 (blkOf A n) j + dot3 (blkOf A (n + 1)) j) (na3 (blkOf A n) j + na3 (blkOf A (n + 1)) j)
          (nb3 (blkOf A n) j + nb3 (blkOf A (n + 1)) j) := by
  rw [sum_flat_pair A a j.castSucc j.succ _ _ (pairA_flat a j) (pairB_flat a j),
    sum_flat_pair A a j.castSucc j.castSucc _ _ (pairA_flat a j) (pairA_flat a j),
    sum_flat_pair A a j.succ j.succ _ _ (pairB_flat a j) (pairB_flat a j),
    ← q3_halves A a n hn j.castSucc j.succ, ← q3_halves A a n hn j.castSucc j.castSucc,
    ← q3_halves A a n hn j.succ j.succ]
  rfl

/-! ## The two cosine sums agree -/

theorem simK_eq_simR (A0 A1 : SArr.Idx → EReal) : simK A0 A1 = simR A0 := by
  unfold simK simR
  refine congrArg (_ + ·) ?_
  rw [sum_idx2]
  refine Eq.symm ((sum_fin_mul (by norm_num : 16 = 2 * 8)
    (fun (g : Fin 2) (b : Fin 8) => (⟨8 * g.val + b.val, by omega⟩ : Fin 16)) (fun _ _ => rfl) _).trans ?_)
  refine Finset.sum_congr rfl fun g _ => ?_
  rw [acc_sim_core]
  refine Finset.sum_congr rfl fun k _ => ?_
  unfold pairCos cosRow
  refine Finset.sum_congr rfl fun j _ => ?_
  exact cos_pair A0 _ j (16 * g.val + 2 * k.val) (by simp only [Fin.val_mk]; omega)

end Cert.Bridge

end
-- ==== Proof.Algebra.lean ====
/-
  The two equalities between the kernel's and the reference's arrangements of the sums, collected:
  Cert.Bridge.bceK_eq_bceR (the cross-entropy sum, on real inputs) and Cert.Bridge.simK_eq_simR (the cosine sum).
-/
import proofs.«142088_j50259707298726_2_alg».proof.Proof.AlgebraBce
import proofs.«142088_j50259707298726_2_alg».proof.Proof.AlgebraSim
-- ==== Proof.lean ====
/-
  The certificate: a focal cross-entropy loss with a cosine penalty between adjacent channels, computed by a kernel
  over a 2 × 8 × 2 grid with carried accumulators, against its plain reference.

  Both programs end in the same scalar function `Cert.Bridge.tail S C` of two sums: S, over every element of the two
  16 × 8 × 512 × 512 arrays, of the clamped cross-entropy term, and C, over the 16 × 7 (batch, adjacent channel pair)s,
  of the cosine dot / (max (√‖a‖²) ε · max (√‖b‖²) ε). They differ in how the term is spelt,
  t·(log p − log(1−p)) + log(1−p) against t·log p + (1−t)·log(1−p) — equal on real numbers, which the precondition
  (every input finite) provides, the clamp at −100 keeping both logarithms real — and in the order of the sums: the
  kernel adds block by block into per-core accumulators and the two cores on the host, the reference sums the
  flattened array at once. Over the extended reals sums may be re-arranged freely, so the two agree.

    Spec        the mathematics: the element terms, a block's contributions, the accumulators, both arrangements;
    Pieces      what one run of the kernel body leaves in each accumulator, case by case;
    Payload     the body's arithmetic read at the extended reals;
    Blocks      which part of the arrays a grid point reads;
    Invariant   the accumulators after every grid point, by induction on the point;
    KernelValue the two output arrays, the host operations after the region, the kernel's result;
    RefValue    the reference's result;  Finite  the precondition;  Algebra*  the two arrangements are equal.
-/
import proofs.«142088_j50259707298726_2_alg».proof.Defs
import proofs.«142088_j50259707298726_2_alg».proof.Proof.Gen.Kernel
import proofs.«142088_j50259707298726_2_alg».proof.Proof.Gen.Kernel.Skeleton
import proofs.«142088_j50259707298726_2_alg».proof.Proof.Gen.Kernel.Launch
import proofs.«142088_j50259707298726_2_alg».proof.Proof.Gen.Kernel.Points
import proofs.«142088_j50259707298726_2_alg».proof.Proof.Gen.Kernel.Frame
import proofs.«142088_j50259707298726_2_alg».proof.Proof.Gen.KernelIdeal
import proofs.«142088_j50259707298726_2_alg».proof.Proof.Gen.KernelIdeal.Skeleton
import proofs.«142088_j50259707298726_2_alg».proof.Proof.Gen.KernelIdeal.Launch
import proofs.«142088_j50259707298726_2_alg».proof.Proof.Gen.KernelIdeal.Points
import proofs.«142088_j50259707298726_2_alg».proof.Proof.Gen.KernelIdeal.Frame
import proofs.«142088_j50259707298726_2_alg».proof.Proof.Gen.ReferenceIdeal
import proofs.«142088_j50259707298726_2_alg».proof.Proof.Gen.Pre_finite_inputs
import proofs.«142088_j50259707298726_2_alg».proof.Proof.Gen.ReferenceIdeal.Run
import proofs.«142088_j50259707298726_2_alg».proof.Proof.Gen.ReferenceIdeal.Read
import proofs.«142088_j50259707298726_2_alg».proof.Proof.KernelValue
import proofs.«142088_j50259707298726_2_alg».proof.Proof.RefValue
import proofs.«142088_j50259707298726_2_alg».proof.Proof.Finite
import proofs.«142088_j50259707298726_2_alg».proof.Proof.Algebra
import Idealize.ShloMosaic.Adequacy
import Idealize.ShloMosaic.Init

noncomputable section

namespace Cert.Proof

open Idealize.ShloMosaic Idealize.SL.Sem

/-- Each kernel program runs, faults nowhere and leaves its arguments as they were: the generated frames. -/
theorem frame_k : Cert.frame_Kernel := fun m ρ _ => Cert.Kernel.Gen.frame m ρ
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end at the host tail of the same two sums: the kernel's accumulated
    arrangement and the reference's flat one agree on finite inputs. -/
theorem algebraic : Cert.algebraic_KernelIdeal_ReferenceIdeal := by
  intro m ρ m' ρ' hpre hagree
  refine ⟨fun c => Cert.Bridge.tail
      (fun _ => Cert.Bridge.bceK (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (fun _ => Cert.Bridge.simK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.KValue.kernel_run m ρ, ?_⟩
  refine (θ_run Cert.ReferenceIdeal.defs _ _).mono (fun _ h c => ⟨?_, (h c).2⟩)
    (Cert.ReferenceIdeal.Value.run (F := Ideal) m' ρ')
  obtain ⟨f0, f1⟩ := Cert.Pre_finite_inputs.Finite.finite_of_pre _ _ (hpre c)
  rw [(h c).1, Cert.ReferenceIdeal.Read.val_main_v43_eq, Cert.ReferenceIdeal.RefValue.ref_value, (hagree c).1,
    (hagree c).2]
  show Cert.Bridge.tail _ _ = Cert.Bridge.tail _ _
  rw [Cert.Bridge.bceK_eq_bceR _ _ f0 f1, Cert.Bridge.simK_eq_simR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
